-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel

variable [Facts]

def fn {F : FTy → Type} [FloatOps F] (main_arg0 : FVec F S2000000x16 .f32) (main_arg1 : FVec F S2000000x16 .f32) (main_arg2 : FVec F S2000000x16 .f32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S2000000x16 .f32 := Host.absf main_arg1
  let main_cst_0 : FVec F S_ .f32 := constant S_ .f32 0x7F800000#32
  let main_v5 : FVec F S2000000x16 .f32 := broadcastInDim S2000000x16 ![] bcast_S_S2000000x16 main_cst_0
  let main_v6 : IVec S2000000x16 1 := cmpf .olt main_v4 main_v5
  let main_c_1 : IVec S_ 1 := constantI S_ 1 1#1
  let main_v7 : IVec S_ 1 := (fun x v => Host.reduce IntOp.andi x v reducesTo_S2000000x16_S_d0_1 h_S_) main_v6 main_c_1
  let main_v8 : IVec S_ 1 := andi main_v3 main_v7
  let main_v9 : FVec F S2000000x16 .f32 := Host.absf main_arg2
  let main_cst_2 : FVec F S_ .f32 := constant S_ .f32 0x7F800000#32
  let main_v10 : FVec F S2000000x16 .f32 := broadcastInDim S2000000x16 ![] bcast_S_S2000000x16 main_cst_2
  let main_v11 : IVec S2000000x16 1 := cmpf .olt main_v9 main_v10
  let main_c_3 : IVec S_ 1 := constantI S_ 1 1#1
  let main_v12 : IVec S_ 1 := (fun x v => Host.reduce IntOp.andi x v reducesTo_S2000000x16_S_d0_1 h_S_) main_v11 main_c_3
  let main_v13 : IVec S_ 1 := andi main_v8 main_v12
  main_v13
-- ==== Kernel.lean ====
abbrev S2000000x16 : Shape := ⟨2, ![2000000, 16]⟩
abbrev S1x128 : Shape := ⟨2, ![1, 128]⟩
abbrev S5000x16 : Shape := ⟨2, ![5000, 16]⟩
abbrev S5000 : Shape := ⟨1, ![5000]⟩
abbrev S5000x1 : Shape := ⟨2, ![5000, 1]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩
abbrev S2 : Shape := ⟨1, ![2]⟩

abbrev nBuf : Space → Nat
  | .hbm => 49
  | .vmem => 15
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S2000000x16, .f32⟩
  | .hbm, ⟨3, _⟩ => ⟨S1x128, .f32⟩
  | .hbm, ⟨4, _⟩ => ⟨S1x10, .f32⟩
  | .hbm, ⟨5, _⟩ => ⟨S10, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S10, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S_, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S1x128, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S5000x16, .f32⟩
  | .local _ .vmem, ⟨1, _⟩ => ⟨S5000x16, .f32⟩
  | .local _ .vmem, ⟨2, _⟩ => ⟨S5000x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S1x128, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x128, .f32⟩
  | .local _ .vmem, ⟨14, _⟩ => ⟨S1x128, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_c_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_c_9 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x128_S1x128_0_0 : ∀ a, (![0, 0] : Fin 2 → Nat) a + S1x128.size a ≤ S1x128.size a
  h_S1x128 : 0 < S1x128.numel
  inb_S5000x16_S5000x16_0_0 : ∀ a, (![0, 0] : Fin 2 → Nat) a + S5000x16.size a ≤ S5000x16.size a
  h_S5000x16 : 0 < S5000x16.numel
  natLt_1_32 : 1 < 32
  iota_S1x128_d1_w32 : S1x128.Iotas .tc 32 [1]
  reduces_S5000x16_S5000 : S5000x16.Reduces [1] S5000
  shapeCasts_S5000_S5000x1 : S5000.ShapeCasts S5000x1
  reduces_S5000x1_S1 : S5000x1.Reduces [0] S1
  shapeCasts_S1_S1x1 : S1.ShapeCasts S1x1
  inpos_S1x1_p0_0 : ∀ a, (![0, 0] : Fin 2 → Nat) a < S1x1.size a
  shapeCasts_S1x128_S1x128 : S1x128.ShapeCasts S1x128
  slices_S1x128_S1x10_0_0 : S1x128.Slices ![0, 0] S1x10
  shapeCasts_S1x10_S10 : S1x10.ShapeCasts S10
  slices_S1x128_S1x1_0_10 : S1x128.Slices ![0, 10] S1x1
  shapeCasts_S1x1_S_ : S1x1.ShapeCasts S_
  bcast_S_S10 : S_.BroadcastsInDim S10 (![] : Fin 0 → Fin S10.rank)
  reducesTo_S10_S_d0 : S10.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_10 : ∀ a, (![0, 10] : Fin 2 → Nat) a + S1x1.size a ≤ S1x128.size a
  h_S1x1 : 0 < S1x1.numel
  inb_S1x128_S1x1_0_0 : ∀ a, (![0, 0] : Fin 2 → Nat) a + S1x1.size a ≤ S1x128.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  slices_S1x128_S1x1_0_0 : S1x128.Slices ![0, 0] S1x1
  scatter_S1x128_S2_S10_0_0_01_0_wf : ScatterDims.WF S1x128 S2 S10 [0] [0] [0, 1] 0
  scatter_S1x128_S2_S__n_01_01_0_wf : ScatterDims.WF S1x128 S2 S_ [] [0, 1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S2000000x16.size a
  hwx0_0 : ∀ i : grid0.Coords, EltTy.bits .f32 = 32 ∨ (Rect.block (s := S2000000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S2000000x16.size a
  hwx0_1 : ∀ i : grid0.Coords, EltTy.bits .f32 = 32 ∨ (Rect.block (s := S2000000x16) S5000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S2000000x16.size a
  hwx0_2 : ∀ i : grid0.Coords, EltTy.bits .f32 = 32 ∨ (Rect.block (s := S2000000x16) S5000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S2000000x16.size a
  hwx1_0 : ∀ i : grid1.Coords, EltTy.bits .f32 = 32 ∨ (Rect.block (s := S2000000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S2000000x16.size a
  hwx1_1 : ∀ i : grid1.Coords, EltTy.bits .f32 = 32 ∨ (Rect.block (s := S2000000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S2000000x16.size a
  hwx1_2 : ∀ i : grid1.Coords, EltTy.bits .f32 = 32 ∨ (Rect.block (s := S2000000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2000000x16 : Shape := ⟨2, ![2000000, 16]⟩
abbrev S_ : Shape := ⟨0, ![]⟩
abbrev S32000000 : Shape := ⟨1, ![32000000]⟩
abbrev S10 : Shape := ⟨1, ![10]⟩
abbrev S32000000x1 : Shape := ⟨2, ![32000000, 1]⟩
abbrev S2000000x16x1 : Shape := ⟨3, ![2000000, 16, 1]⟩

abbrev nBuf : Space → Nat
  | .hbm => 89
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x16, .f32⟩
  | .hbm, ⟨2, _⟩ => ⟨S2000000x16, .f32⟩
  | .hbm, ⟨3, _⟩ => ⟨S2000000x16, .f32⟩
  | .hbm, ⟨4, _⟩ => ⟨S2000000x16, .f32⟩
  | .hbm, ⟨5, _⟩ => ⟨S_, .f32⟩
  | .hbm, ⟨6, _⟩ => ⟨S2000000x16, .f32⟩
  | .hbm, ⟨7, _⟩ => ⟨S2000000x16, .f32⟩
  | .hbm, ⟨8, _⟩ => ⟨S_, .f32⟩
  | .hbm, ⟨9, _⟩ => ⟨S2000000x16, .f32⟩
  | .hbm, ⟨10, _⟩ => ⟨S2000000x16, .f32⟩
  | .hbm, ⟨11, _⟩ => ⟨S2000000x16, .f32⟩
  | .hbm, ⟨12, _⟩ => ⟨S2000000x16, .f32⟩
  | .hbm, ⟨13, _⟩ => ⟨S_, .f32⟩
  | .hbm, ⟨14, _⟩ => ⟨S2000000x16, .f32⟩
  | .hbm, ⟨15, _⟩ => ⟨S2000000x16, .i1⟩
  | .hbm, ⟨16, _⟩ => ⟨S2000000x16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2000000x16, .f32⟩
  | .hbm, ⟨23, _⟩ => ⟨S2000000x16, .f32⟩
  | .hbm, ⟨24, _⟩ => ⟨S2000000x16, .f32⟩
  | .hbm, ⟨25, _⟩ => ⟨S2000000x16, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2000000x16, .i32⟩
  | .hbm, ⟨30, _⟩ => ⟨S2000000x16, .i32⟩
  | .hbm, ⟨31, _⟩ => ⟨S_, .i32⟩
  | .hbm, ⟨32, _⟩ => ⟨S2000000x16, .i32⟩
  | .hbm, ⟨33, _⟩ => ⟨S2000000x16, .i32⟩
  | .hbm, ⟨34, _⟩ => ⟨S2000000x16, .f32⟩
  | .hbm, ⟨35, _⟩ => ⟨S32000000, .f32⟩
  | .hbm, ⟨36, _⟩ => ⟨S32000000, .i32⟩
  | .hbm, ⟨37, _⟩ => ⟨S_, .f32⟩
  | .hbm, ⟨38, _⟩ => ⟨S10, .f32⟩
  | .hbm, ⟨39, _⟩ => ⟨S32000000x1, .i32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .i1⟩
  | .hbm, ⟨44, _⟩ => ⟨S10, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S10, .f32⟩
  | .hbm, ⟨49, _⟩ => ⟨S10, .f32⟩
  | .hbm, ⟨50, _⟩ => ⟨S10, .f32⟩
  | .hbm, ⟨51, _⟩ => ⟨S10, .f32⟩
  | .hbm, ⟨52, _⟩ => ⟨S_, .f32⟩
  | .hbm, ⟨53, _⟩ => ⟨S_, .f32⟩
  | .hbm, ⟨54, _⟩ => ⟨S10, .f32⟩
  | .hbm, ⟨55, _⟩ => ⟨S10, .f32⟩
  | .hbm, ⟨56, _⟩ => ⟨S_, .i32⟩
  | .hbm, ⟨57, _⟩ => ⟨S2000000x16, .i32⟩
  | .hbm, ⟨58, _⟩ => ⟨S2000000x16, .i1⟩
  | .hbm, ⟨59, _⟩ => ⟨S_, .i32⟩
  | .hbm, ⟨60, _⟩ => ⟨S2000000x16, .i32⟩
  | .hbm, ⟨61, _⟩ => ⟨S2000000x16, .i32⟩
  | .hbm, ⟨62, _⟩ => ⟨S2000000x16, .i32⟩
  | .hbm, ⟨63, _⟩ => ⟨S2000000x16x1, .i32⟩
  | .hbm, ⟨64, _⟩ => ⟨S2000000x16, .f32⟩
  | .hbm, ⟨65, _⟩ => ⟨S_, .f32⟩
  | .hbm, ⟨66, _⟩ => ⟨S_, .f32⟩
  | .hbm, ⟨67, _⟩ => ⟨S2000000x16, .f32⟩
  | .hbm, ⟨68, _⟩ => ⟨S2000000x16, .f32⟩
  | .hbm, ⟨69, _⟩ => ⟨S_, .f32⟩
  | .hbm, ⟨70, _⟩ => ⟨S_, .f32⟩
  | .hbm, ⟨71, _⟩ => ⟨S2000000x16, .f32⟩
  | .hbm, ⟨72, _⟩ => ⟨S2000000x16, .f32⟩
  | .hbm, ⟨73, _⟩ => ⟨S_, .f32⟩
  | .hbm, ⟨74, _⟩ => ⟨S2000000x16, .f32⟩
  | .hbm, ⟨75, _⟩ => ⟨S2000000x16, .f32⟩
  | .hbm, ⟨76, _⟩ => ⟨S2000000x16, .f32⟩
  | .hbm, ⟨77, _⟩ => ⟨S2000000x16, .f32⟩
  | .hbm, ⟨78, _⟩ => ⟨S2000000x16, .f32⟩
  | .hbm, ⟨79, _⟩ => ⟨S2000000x16, .f32⟩
  | .hbm, ⟨80, _⟩ => ⟨S2000000x16, .f32⟩
  | .hbm, ⟨81, _⟩ => ⟨S2000000x16, .f32⟩
  | .hbm, ⟨82, _⟩ => ⟨S2000000x16, .f32⟩
  | .hbm, ⟨83, _⟩ => ⟨S2000000x16, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_c_5 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_call1_v0 : Ref sig .tc := ⟨.hbm, 53, rfl⟩
abbrev main_call1_v1 : Ref sig .tc := ⟨.hbm, 54, rfl⟩
abbrev main_v32 : Ref sig .tc := ⟨.hbm, 55, rfl⟩
abbrev main_c_11 : Ref sig .tc := ⟨.hbm, 56, rfl⟩
abbrev main_v33 : Ref sig .tc := ⟨.hbm, 57, rfl⟩
abbrev main_v34 : Ref sig .tc := ⟨.hbm, 58, rfl⟩
abbrev main_c_12 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_call2_v0 : Ref sig .tc := ⟨.hbm, 66, rfl⟩
abbrev main_call2_v1 : Ref sig .tc := ⟨.hbm, 67, rfl⟩
abbrev main_v40 : Ref sig .tc := ⟨.hbm, 68, rfl⟩
abbrev main_cst_14 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_cst_17 : Ref sig .tc := ⟨.hbm, 87, rfl⟩
abbrev main_v56 : Ref sig .tc := ⟨.hbm, 88, rfl⟩

abbrev nD : Nat := 1
abbrev τ : Topo := Topo.v7x

variable {F : FTy → Type} [FloatOps F]

class Facts₀ : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel
  shapeCasts_S2000000x16_S32000000 : S2000000x16.ShapeCasts S32000000
  bcast_S_S10 : S_.BroadcastsInDim S10 (![] : Fin 0 → Fin S10.rank)
  bcast_S32000000_S32000000x1_0 : S32000000.BroadcastsInDim S32000000x1 (![0] : Fin 1 → Fin S32000000x1.rank)
  reducesTo_S10_S_d0 : S10.ReducesTo [0] S_
  bcast_S2000000x16_S2000000x16x1_0_1 : S2000000x16.BroadcastsInDim S2000000x16x1 (![0, 1] : Fin 2 → Fin S2000000x16x1.rank)
  scatter_S10_S32000000x1_S32000000_n_0_0_1_wf : ScatterDims.WF S10 S32000000x1 S32000000 [] [0] [0] 1
  gather_S10_S2000000x16x1_S2000000x16_n_0_n_n_0_2_1_wf : GatherDims.WF S10 S2000000x16x1 S2000000x16 [] [0] [] [0] [] 2 ![1]

variable [Facts₀]

def scatter_S10_S32000000x1_S32000000_n_0_0_1 : ScatterDims S10 S32000000x1 S32000000 where
  updateWindowDims := []
  insertedWindowDims := [0]
  scatterDimsToOperandDims := [0]
  indexVectorDim := 1
  wf := scatter_S10_S32000000x1_S32000000_n_0_0_1_wf
def gather_S10_S2000000x16x1_S2000000x16_n_0_n_n_0_2_1 : GatherDims S10 S2000000x16x1 S2000000x16 where
  offsetDims := []
  collapsedSliceDims := [0]
  operandBatchingDims := []
  startIndicesBatchingDims := []
  startIndexMap := [0]
  indexVectorDim := 2
  sliceSizes := ![1]
  wf := gather_S10_S2000000x16x1_S2000000x16_n_0_n_n_0_2_1_wf

class Facts : Prop extends Facts₀ where

variable [Facts]
-- ==== Proof.KernelRun.lean ====
import proofs.«155373_j51591147159894_2_alg».proof.Proof.Gen.KernelIdeal.Frame

/-! # The kernel program's run at the ideal instance, with the result buffer read

The generated frame folds the buffer contents through the program's segments (`Gen.W0 … Gen.W6`) and proves that the
run terminates with the arguments as launched. Here the same run is read at the result buffer as well: at the end
the result buffer holds what the fold `Gen.W6` says. -/

set_option maxRecDepth 16384

noncomputable section

namespace Cert.KernelIdeal.HostSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program from any memory with zero counters terminates, nothing faulting; every final state has
    the result buffer at the last boundary's contents `Gen.W6` and the argument arrays as launched. -/
theorem run_value : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

/-- info: 'Cert.KernelIdeal.HostSide.run_value' depends on axioms: [propext, Classical.choice, Quot.sound] -/
#guard_msgs in #print axioms run_value

end Cert.KernelIdeal.HostSide

end
-- ==== Proof.LibScatterSet.lean ====
import Idealize.ShloMosaic.PureOps.ShapeOps
import Idealize.ShloMosaic.PureOps.Dims

/-!
# A scatter that overwrites, read at one index

The host scatter whose body returns the update is a left fold of pointwise overwrites over the update positions in
row-major order. Read at an operand index i, such a fold keeps the operand's element when no update lands on i, and
holds update n0 when n0 is the only update landing on i. Nothing here depends on the order of the fold or on the
number of updates, so the statements hold for operands of any size without the list of update positions ever being
evaluated.
-/

namespace Cert.Lib.ScatterSet

open Idealize.ShloMosaic

/-- A left fold whose steps leave index i alone unless the step's position satisfies P keeps the initial value at
    i over a list with no such position. -/
theorem foldl_keep {ι α β : Type} (step : (ι → α) → β → ι → α) (i : ι) (P : β → Prop)
    (hmiss : ∀ r n, ¬ P n → step r n i = r i) :
    ∀ (l : List β) (x : ι → α), (∀ n ∈ l, ¬ P n) → l.foldl step x i = x i := by
  intro l
  induction l with
  | nil => intro x _; rfl
  | cons a t ih =>
    intro x h
    rw [List.foldl_cons, ih _ (fun n hn => h n (List.mem_cons_of_mem _ hn))]
    exact hmiss x a (h a (List.mem_cons_self ..))

/-- If moreover a step at a position satisfying P writes v of that position at i, the fold over a list in which n0
    is the only such position holds v n0 at i. -/
theorem foldl_hit {ι α β : Type} (step : (ι → α) → β → ι → α) (i : ι) (P : β → Prop) (v : β → α)
    (hmiss : ∀ r n, ¬ P n → step r n i = r i) (hhit : ∀ r n, P n → step r n i = v n) :
    ∀ (l : List β) (x : ι → α) (n0 : β), n0 ∈ l → P n0 → (∀ n ∈ l, P n → n = n0) →
      l.foldl step x i = v n0 := by
  intro l
  induction l with
  | nil => intro x n0 h; exact absurd h (List.not_mem_nil)
  | cons a t ih =>
    intro x n0 hmem hP huniq
    rw [List.foldl_cons]
    by_cases ht : n0 ∈ t
    · exact ih _ n0 ht hP (fun n hn => huniq n (List.mem_cons_of_mem _ hn))
    · have ha : n0 = a := by
        rcases List.mem_cons.mp hmem with h | h
        · exact h
        · exact absurd h ht
      subst ha
      rw [foldl_keep step i P hmiss t _ (fun n hn e => ht (huniq n (List.mem_cons_of_mem _ hn) e ▸ hn))]
      exact hhit x n0 hP

/-- The overwriting scatter read at i, when update position j0 is the only one whose result index is i: the
    update's element at j0. -/
theorem scatter_set_apply {s si u : Shape} {α : Type} {w : Nat} (d : ScatterDims s si u) (x : s.Idx → α)
    (idx : IVec si w) (upd : u.Idx → α) (i : s.Idx) (j0 : u.Idx)
    (hhit : d.resultIdx? j0 idx = some i)
    (huniq : ∀ j : u.Idx, d.resultIdx? j idx = some i → j = j0) :
    Host.scatter d (fun _ b => b) x idx upd i = upd j0 := by
  unfold Host.scatter
  refine (foldl_hit _ i (fun n : Fin u.numel => d.resultIdx? (u.rowMajor.symm n) idx = some i)
    (fun n => upd (u.rowMajor.symm n)) ?_ ?_ (List.finRange u.numel) x (u.rowMajor j0) (List.mem_finRange _) ?_ ?_).trans ?_
  · intro r n hP
    dsimp only
    revert hP
    cases d.resultIdx? (u.rowMajor.symm n) idx with
    | none => intro _; rfl
    | some i0 =>
      intro hP
      exact if_neg (fun e => hP (by rw [e]))
  · intro r n hP
    dsimp only at hP ⊢
    rw [hP]
    exact if_pos rfl
  · show d.resultIdx? (u.rowMajor.symm (u.rowMajor j0)) idx = some i
    rw [Equiv.symm_apply_apply]; exact hhit
  · intro n _ hn
    have := huniq _ hn
    rw [← this, Equiv.apply_symm_apply]
  · show upd (u.rowMajor.symm (u.rowMajor j0)) = upd j0
    rw [Equiv.symm_apply_apply]

end Cert.Lib.ScatterSet
-- ==== Proof.KernelGlue.lean ====
import proofs.«155373_j51591147159894_2_alg».proof.Proof.Gen.KernelIdeal.Frame
import proofs.«155373_j51591147159894_2_alg».proof.Proof.LibScatterSet
import Idealize.ShloMosaic.Lib.IdealHost
import Idealize.ShloMosaic.Lib.ValueLayout
import Idealize.ShloMosaic.Lib.StableHlo.Run

/-! # The host operations of the kernel program, read at the ideal instance

Between its two regions the program turns region 0's output row (ten bin counts in lanes 0 to 9, the number of valid
entries in lane 10) into the row region 1 reads as its fourth operand: lane b < 10 holds the weight of bin b — the
total clamped below by one, over the count clamped below by one, when the count is positive, and zero otherwise —,
lane 10 the reciprocal of the number of nonempty bins clamped below by one. After region 1 the result is lane 0 of
its output row over the clamped total, times one. The statements below read these values off the fold of buffer
contents through the program's segments. -/

set_option maxRecDepth 16384

noncomputable section

namespace Cert.KernelIdeal.HostSide

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open scoped BigOperators

/-! ## Lanes of a row -/

/-- Lane `b` of the ten leading lanes of a 128-lane row, as an index of the row. -/
abbrev lane (b : Fin 10) : S1x128.Idx := ix2 (0 : Fin 1) (Fin.castLE (by decide : 10 ≤ 128) b)

/-- The words of 0.0 and 1.0 as ideal values. -/
abbrev zero : EReal := FloatOps.ofBits (F := Ideal) .f32 0x00000000#32
abbrev one : EReal := FloatOps.ofBits (F := Ideal) .f32 0x3F800000#32

section Layout
variable {α : Type}

/-- One lane of a row, sliced out and cast to a scalar, is the row at that lane. -/
theorem scalar_of_lane (X : S1x128.Idx → α) (o : Nat) (l : Fin 128) (hl : l.val = o)
    (hs : S1x128.Slices ![0, o] S1x1) (hc : S1x1.ShapeCasts S_) (j : S_.Idx) :
    shapeCast S_ (extractStridedSlice S1x1 ![0, o] X hs) hc j = X (ix2 (0 : Fin 1) l) := by
  rw [shapeCast_apply _ hc j (ix2 (0 : Fin 1) (0 : Fin 1)) (by
    have h1 := (S1x1.rowMajor (ix2 (0 : Fin 1) (0 : Fin 1))).isLt
    have h2 := (S_.rowMajor j).isLt
    have e1 : S1x1.numel = 1 := by decide
    have e2 : S_.numel = 1 := by decide
    omega)]
  exact slice2_axis1_apply o X hs (0 : Fin 1) (0 : Fin 1) l (by rw [hl]; rfl)

/-- The ten leading lanes of a row, sliced out and cast to a vector, read at `b` the row at lane `b`. -/
theorem vector_of_lanes (X : S1x128.Idx → α) (hs : S1x128.Slices ![0, 0] S1x10) (hc : S1x10.ShapeCasts S10) (b : Fin 10) :
    shapeCast S10 (extractStridedSlice S1x10 ![0, 0] X hs) hc (ix1 b) = X (lane b) := by
  rw [shapeCast_1a_a_apply _ hc b]
  exact slice2_axis1_apply 0 X hs (0 : Fin 1) b (Fin.castLE (by decide : 10 ≤ 128) b) (by simp)

end Layout

/-! ## The two overwriting scatters read at a lane -/

section Scatter
variable {α : Type}

/-- An overwriting scatter read at an index no update lands on keeps the operand's element. -/
theorem scatter_set_apply_miss {s si u : Shape} {w : Nat} (d : ScatterDims s si u) (x : s.Idx → α)
    (idx : IVec si w) (upd : u.Idx → α) (i : s.Idx)
    (hmiss : ∀ j : u.Idx, d.resultIdx? j idx ≠ some i) :
    Host.scatter d (fun _ b => b) x idx upd i = x i := by
  unfold Host.scatter
  refine Cert.Lib.ScatterSet.foldl_keep _ i (fun n : Fin u.numel => d.resultIdx? (u.rowMajor.symm n) idx = some i) ?_
    (List.finRange u.numel) x (fun n _ => hmiss _)
  intro r n hP
  dsimp only
  revert hP
  cases d.resultIdx? (u.rowMajor.symm n) idx with
  | none => intro _; rfl
  | some i0 =>
    intro hP
    exact if_neg (fun e => hP (by rw [e]))

/-- The first scatter's start on either axis is the matching component of the index pair. -/
theorem s1_start0 (idx : IVec S2 32) (j : S10.Idx) :
    scatter_S1x128_S2_S10_0_0_01_0.start j idx 0 = (idx (ix1 0)).toInt := by
  unfold ScatterDims.start
  rw [dif_pos (by decide)]
  congr 2
  funext b
  match b with | ⟨0, _⟩ => rfl
theorem s1_start1 (idx : IVec S2 32) (j : S10.Idx) :
    scatter_S1x128_S2_S10_0_0_01_0.start j idx 1 = (idx (ix1 1)).toInt := by
  unfold ScatterDims.start
  rw [dif_pos (by decide)]
  congr 2
  funext b
  match b with | ⟨0, _⟩ => rfl

/-- With the index pair (0, 0), update `b` of the first scatter lands on lane `b` of row 0. -/
theorem s1_resultIdx (idx : IVec S2 32) (h0 : idx (ix1 0) = 0#32) (h1 : idx (ix1 1) = 0#32) (b : Fin 10) :
    scatter_S1x128_S2_S10_0_0_01_0.resultIdx? (ix1 b) idx = some (lane b) := by
  have hs0 : scatter_S1x128_S2_S10_0_0_01_0.start (ix1 b) idx 0 = 0 := by rw [s1_start0, h0]; rfl
  have hs1 : scatter_S1x128_S2_S10_0_0_01_0.start (ix1 b) idx 1 = 0 := by rw [s1_start1, h1]; rfl
  have hw0 : scatter_S1x128_S2_S10_0_0_01_0.window (ix1 b) 0 = 0 := rfl
  have hw1 : scatter_S1x128_S2_S10_0_0_01_0.window (ix1 b) 1 = b.val := rfl
  have hb := b.isLt
  unfold ScatterDims.resultIdx?
  rw [dif_pos (fun a => by
    match a with
    | ⟨0, _⟩ => rw [show (⟨0, _⟩ : Fin S1x128.rank) = 0 from rfl, hs0, hw0]; decide
    | ⟨1, _⟩ =>
      rw [show (⟨1, _⟩ : Fin S1x128.rank) = 1 from rfl, hs1, hw1]
      refine ⟨by omega, ?_⟩
      show (0 : ℤ) + (b.val : ℤ) < 128
      omega)]
  refine congrArg some (funext fun a => Fin.ext ?_)
  match a with
  | ⟨0, _⟩ =>
    show (scatter_S1x128_S2_S10_0_0_01_0.start (ix1 b) idx 0 + (scatter_S1x128_S2_S10_0_0_01_0.window (ix1 b) 0 : ℕ)).toNat = 0
    rw [hs0, hw0]; rfl
  | ⟨1, _⟩ =>
    show (scatter_S1x128_S2_S10_0_0_01_0.start (ix1 b) idx 1 + (scatter_S1x128_S2_S10_0_0_01_0.window (ix1 b) 1 : ℕ)).toNat = b.val
    rw [hs1, hw1]; omega

/-- The first scatter with the index pair (0, 0), read at lane `b` below ten: update `b`. -/
theorem s1_apply_lane (x : S1x128.Idx → α) (idx : IVec S2 32) (h0 : idx (ix1 0) = 0#32) (h1 : idx (ix1 1) = 0#32)
    (upd : S10.Idx → α) (b : Fin 10) :
    Host.scatter scatter_S1x128_S2_S10_0_0_01_0 (fun _ b => b) x idx upd (lane b) = upd (ix1 b) :=
  Cert.Lib.ScatterSet.scatter_set_apply _ x idx upd (lane b) (ix1 b) (s1_resultIdx idx h0 h1 b) fun j hj => by
    obtain ⟨b', rfl⟩ : ∃ b' : Fin 10, j = ix1 b' := ⟨j 0, eq_ix1 j⟩
    rw [s1_resultIdx idx h0 h1 b'] at hj
    have e0 := congrFun (Option.some.inj hj) 1
    have e1 : (lane b' 1).val = (lane b 1).val := congrArg Fin.val e0
    have e : b'.val = b.val := e1
    exact congrArg ix1 (Fin.ext e)

theorem s2_start0 (idx : IVec S2 32) (j : S_.Idx) :
    scatter_S1x128_S2_S__n_01_01_0.start j idx 0 = (idx (ix1 0)).toInt := by
  unfold ScatterDims.start
  rw [dif_pos (by decide)]
  congr 2
  funext b
  match b with | ⟨0, _⟩ => rfl
theorem s2_start1 (idx : IVec S2 32) (j : S_.Idx) :
    scatter_S1x128_S2_S__n_01_01_0.start j idx 1 = (idx (ix1 1)).toInt := by
  unfold ScatterDims.start
  rw [dif_pos (by decide)]
  congr 2
  funext b
  match b with | ⟨0, _⟩ => rfl

/-- With the index pair (0, 10), the second scatter's one update lands on lane 10 of row 0. -/
theorem s2_resultIdx (idx : IVec S2 32) (h0 : idx (ix1 0) = 0#32) (h1 : idx (ix1 1) = 10#32) (j : S_.Idx) :
    scatter_S1x128_S2_S__n_01_01_0.resultIdx? j idx = some (ix2 (0 : Fin 1) (10 : Fin 128)) := by
  have hs0 : scatter_S1x128_S2_S__n_01_01_0.start j idx 0 = 0 := by rw [s2_start0, h0]; rfl
  have hs1 : scatter_S1x128_S2_S__n_01_01_0.start j idx 1 = 10 := by rw [s2_start1, h1]; rfl
  have hw0 : scatter_S1x128_S2_S__n_01_01_0.window j 0 = 0 := rfl
  have hw1 : scatter_S1x128_S2_S__n_01_01_0.window j 1 = 0 := rfl
  unfold ScatterDims.resultIdx?
  rw [dif_pos (fun a => by
    match a with
    | ⟨0, _⟩ => rw [show (⟨0, _⟩ : Fin S1x128.rank) = 0 from rfl, hs0, hw0]; decide
    | ⟨1, _⟩ => rw [show (⟨1, _⟩ : Fin S1x128.rank) = 1 from rfl, hs1, hw1]; decide)]
  refine congrArg some (funext fun a => Fin.ext ?_)
  match a with
  | ⟨0, _⟩ =>
    show (scatter_S1x128_S2_S__n_01_01_0.start j idx 0 + (scatter_S1x128_S2_S__n_01_01_0.window j 0 : ℕ)).toNat = 0
    rw [hs0, hw0]; rfl
  | ⟨1, _⟩ =>
    show (scatter_S1x128_S2_S__n_01_01_0.start j idx 1 + (scatter_S1x128_S2_S__n_01_01_0.window j 1 : ℕ)).toNat = 10
    rw [hs1, hw1]; rfl

/-- The second scatter with the index pair (0, 10), read at lane 10: its update. -/
theorem s2_apply_lane10 (x : S1x128.Idx → α) (idx : IVec S2 32) (h0 : idx (ix1 0) = 0#32) (h1 : idx (ix1 1) = 10#32)
    (upd : S_.Idx → α) :
    Host.scatter scatter_S1x128_S2_S__n_01_01_0 (fun _ b => b) x idx upd (ix2 (0 : Fin 1) (10 : Fin 128)) = upd ix0 :=
  Cert.Lib.ScatterSet.scatter_set_apply _ x idx upd _ ix0 (s2_resultIdx idx h0 h1 ix0) fun j _ => eq_ix0 j

/-- … and read at a lane below ten: the operand's element. -/
theorem s2_apply_lane (x : S1x128.Idx → α) (idx : IVec S2 32) (h0 : idx (ix1 0) = 0#32) (h1 : idx (ix1 1) = 10#32)
    (upd : S_.Idx → α) (b : Fin 10) :
    Host.scatter scatter_S1x128_S2_S__n_01_01_0 (fun _ b => b) x idx upd (lane b) = x (lane b) :=
  scatter_set_apply_miss _ x idx upd (lane b) fun j hj => by
    rw [s2_resultIdx idx h0 h1 j] at hj
    have e := congrArg Fin.val (congrFun (Option.some.inj hj) 1)
    have hb := b.isLt
    have e' : (10 : ℕ) = b.val := e
    omega

/-- The index pair the program builds: two broadcast integer scalars laid end to end. -/
theorem idx_pair (p q : BitVec 32) :
    let idx : IVec S2 32 := concatenate S2 0 [⟨S1, broadcastInDim S1 ![] bcast_S_S1 (constantI S_ 32 p)⟩,
      ⟨S1, broadcastInDim S1 ![] bcast_S_S1 (constantI S_ 32 q)⟩] concatenates_S1_S1_S2_d0
    idx (ix1 0) = p ∧ idx (ix1 1) = q := by
  refine ⟨?_, ?_⟩
  · rw [concatenate_pair_apply_left (0 : Fin S2.rank) _ _ concatenates_S1_S1_S2_d0 (ix1 0) rfl (ix1 0) (fun b => by
      match b with | ⟨0, _⟩ => rfl)]
    rw [broadcastInDim_scalar_apply]; rfl
  · rw [concatenate_pair_apply_right (0 : Fin S2.rank) _ _ concatenates_S1_S1_S2_d0 (ix1 1) rfl rfl (ix1 0)
      (fun b hb => by match b with | ⟨0, _⟩ => exact absurd rfl hb) rfl]
    rw [broadcastInDim_scalar_apply]; rfl

end Scatter

/-! ## The stretch between region 0 and the outlined call, from any contents `V` -/

section Stage1
variable (V : Valuation τ sig (Elt Ideal))

/-- Region 0's output row as the contents `V` hold it. -/
abbrev row0 : S1x128.Idx → EReal := V (Proc.devRef .tc main_v0)

/-- The total clamped below by one. -/
theorem ops1_v5 : @Eq (S_.Idx → EReal) (StableHlo.after (hostOps1 (F := Ideal)) V (Proc.devRef .tc main_v5))
    (fun _ => FloatOps.maximumf (F := Ideal) (φ := .f32) (row0 V (ix2 (0 : Fin 1) (10 : Fin 128))) one) := by
  after_results
  funext j
  show FloatOps.maximumf (F := Ideal) (φ := .f32) (shapeCast S_ (extractStridedSlice S1x1 ![0, 10] (row0 V) slices_S1x128_S1x1_0_10) shapeCasts_S1x1_S_ j) one = _
  rw [scalar_of_lane (row0 V) 10 (10 : Fin 128) rfl]

/-- Which bins are nonempty. -/
theorem ops1_v7 : @Eq (S10.Idx → BitVec 1) (StableHlo.after (hostOps1 (F := Ideal)) V (Proc.devRef .tc main_v7))
    (fun i => FloatOps.cmpf (F := Ideal) (φ := .f32) .ogt (row0 V (lane (i 0))) zero) := by
  after_results
  funext i
  obtain ⟨b, rfl⟩ : ∃ b, i = ix1 b := ⟨i 0, eq_ix1 i⟩
  show FloatOps.cmpf (F := Ideal) (φ := .f32) .ogt (shapeCast S10 (extractStridedSlice S1x10 ![0, 0] (row0 V) slices_S1x128_S1x10_0_0) shapeCasts_S1x10_S10 (ix1 b))
    (broadcastInDim S10 ![] bcast_S_S10 (constant (F := Ideal) S_ .f32 0x00000000#32) (ix1 b)) = _
  rw [vector_of_lanes, broadcastInDim_scalar_apply]
  rfl

/-- The number of nonempty bins: the initial value plus the sum of the bins' indicators. -/
theorem ops1_v9 : @Eq (S_.Idx → EReal) (StableHlo.after (hostOps1 (F := Ideal)) V (Proc.devRef .tc main_v9))
    (fun _ => zero + ∑ i : S10.Idx, FloatOps.uitofp (F := Ideal) (w := 1) .f32 (FloatOps.cmpf (F := Ideal) (φ := .f32) .ogt (row0 V (lane (i 0))) zero)) := by
  after_results
  funext j
  rw [hostReduceAdd_apply, Ideal.hostReduceAdd_total reducesTo_S10_S_d0 (fun b => b.elim0)]
  refine congrArg₂ (· + ·) rfl (Finset.sum_congr rfl fun i _ => ?_)
  obtain ⟨b, rfl⟩ : ∃ b, i = ix1 b := ⟨i 0, eq_ix1 i⟩
  show FloatOps.uitofp (F := Ideal) (w := 1) .f32 (FloatOps.cmpf (F := Ideal) (φ := .f32) .ogt (shapeCast S10 (extractStridedSlice S1x10 ![0, 0] (row0 V) slices_S1x128_S1x10_0_0) shapeCasts_S1x10_S10 (ix1 b))
    (broadcastInDim S10 ![] bcast_S_S10 (constant (F := Ideal) S_ .f32 0x00000000#32) (ix1 b))) = _
  rw [vector_of_lanes, broadcastInDim_scalar_apply]
  rfl

/-- The clamped total over each bin's clamped count. -/
theorem ops1_v13 : @Eq (S10.Idx → EReal) (StableHlo.after (hostOps1 (F := Ideal)) V (Proc.devRef .tc main_v13))
    (fun i => FloatOps.hostDivf (F := Ideal) (φ := .f32) (FloatOps.maximumf (F := Ideal) (φ := .f32) (row0 V (ix2 (0 : Fin 1) (10 : Fin 128))) one)
        (FloatOps.maximumf (F := Ideal) (φ := .f32) (row0 V (lane (i 0))) one)) := by
  after_results
  funext i
  obtain ⟨b, rfl⟩ : ∃ b, i = ix1 b := ⟨i 0, eq_ix1 i⟩
  show FloatOps.hostDivf (F := Ideal) (φ := .f32)
      (broadcastInDim S10 ![] bcast_S_S10 (fun j : S_.Idx => FloatOps.maximumf (F := Ideal) (φ := .f32) (shapeCast S_ (extractStridedSlice S1x1 ![0, 10] (row0 V) slices_S1x128_S1x1_0_10) shapeCasts_S1x1_S_ j) one) (ix1 b))
      (FloatOps.maximumf (F := Ideal) (φ := .f32) (shapeCast S10 (extractStridedSlice S1x10 ![0, 0] (row0 V) slices_S1x128_S1x10_0_0) shapeCasts_S1x10_S10 (ix1 b))
        (broadcastInDim S10 ![] bcast_S_S10 (constant (F := Ideal) S_ .f32 0x3F800000#32) (ix1 b))) = _
  rw [vector_of_lanes, broadcastInDim_scalar_apply, broadcastInDim_scalar_apply, scalar_of_lane (row0 V) 10 (10 : Fin 128) rfl]
  rfl

/-- The zero the outlined call selects where a bin is empty. -/
theorem ops1_cst3 : @Eq (S_.Idx → EReal) (StableHlo.after (hostOps1 (F := Ideal)) V (Proc.devRef .tc main_cst_3)) (fun _ => zero) := by
  after_results
  rfl

end Stage1

/-! ## The outlined call, the stretch up to region 1, and the stretch after it, from any contents `V` -/

section Stage2
variable (V : Valuation τ sig (Elt Ideal))

/-- The outlined call selects, bin by bin, the weight where the bin is nonempty and zero elsewhere. -/
theorem ops1_1_v14 : @Eq (S10.Idx → EReal) (StableHlo.after (hostOps1_1 (F := Ideal)) V (Proc.devRef .tc main_v14))
    (fun i => Scalar.select ((V (Proc.devRef .tc main_v7) : S10.Idx → BitVec 1) i) ((V (Proc.devRef .tc main_v13) : S10.Idx → EReal) i)
      ((V (Proc.devRef .tc main_cst_3) : S_.Idx → EReal) ix0)) := by
  after_results
  funext i
  show Scalar.select ((V (Proc.devRef .tc main_v7) : S10.Idx → BitVec 1) i) ((V (Proc.devRef .tc main_v13) : S10.Idx → EReal) i)
    (broadcastInDim S10 ![] bcast_S_S10 (V (Proc.devRef .tc main_cst_3) : S_.Idx → EReal) i) = _
  rw [broadcastInDim_scalar_apply]
/-- It writes neither the clamped total nor the number of nonempty bins. -/
theorem ops1_1_v5 : StableHlo.after (hostOps1_1 (F := Ideal)) V (Proc.devRef .tc main_v5) = V (Proc.devRef .tc main_v5) := by
  after_results
theorem ops1_1_v9 : StableHlo.after (hostOps1_1 (F := Ideal)) V (Proc.devRef .tc main_v9) = V (Proc.devRef .tc main_v9) := by
  after_results

/-- The row handed to region 1, at a lane below ten: the selected weight of that bin. -/
theorem ops1_2_v25_lane (b : Fin 10) :
    (StableHlo.after (hostOps1_2 (F := Ideal)) V (Proc.devRef .tc main_v25) : S1x128.Idx → EReal) (lane b)
      = (V (Proc.devRef .tc main_v14) : S10.Idx → EReal) (ix1 b) := by
  have h := idx_pair 0#32 0#32
  have h' := idx_pair 0#32 10#32
  after_results
  exact (s2_apply_lane _ _ h'.1 h'.2 _ b).trans (s1_apply_lane _ _ h.1 h.2 _ b)
/-- … at lane 10: one over the number of nonempty bins clamped below by one. -/
theorem ops1_2_v25_lane10 :
    (StableHlo.after (hostOps1_2 (F := Ideal)) V (Proc.devRef .tc main_v25) : S1x128.Idx → EReal) (ix2 (0 : Fin 1) (10 : Fin 128))
      = FloatOps.hostDivf (F := Ideal) (φ := .f32) one
          (FloatOps.maximumf (F := Ideal) (φ := .f32) ((V (Proc.devRef .tc main_v9) : S_.Idx → EReal) ix0) one) := by
  have h' := idx_pair 0#32 10#32
  after_results
  exact (s2_apply_lane10 _ _ h'.1 h'.2 _).trans rfl
/-- The stretch does not write the clamped total. -/
theorem ops1_2_v5 : StableHlo.after (hostOps1_2 (F := Ideal)) V (Proc.devRef .tc main_v5) = V (Proc.devRef .tc main_v5) := by
  after_results

/-- The result: lane 0 of region 1's output row over the clamped total, times one. -/
theorem ops2_v30 : @Eq (S_.Idx → EReal) (StableHlo.after (hostOps2 (F := Ideal)) V (Proc.devRef .tc main_v30))
    (fun _ => FloatOps.mulf (F := Ideal) (φ := .f32)
      (FloatOps.hostDivf (F := Ideal) (φ := .f32) ((V (Proc.devRef .tc main_v26) : S1x128.Idx → EReal) (ix2 (0 : Fin 1) (0 : Fin 128)))
        ((V (Proc.devRef .tc main_v5) : S_.Idx → EReal) ix0)) one) := by
  after_results
  funext j
  show FloatOps.mulf (F := Ideal) (φ := .f32) (FloatOps.hostDivf (F := Ideal) (φ := .f32)
      (shapeCast S_ (extractStridedSlice S1x1 ![0, 0] (V (Proc.devRef .tc main_v26) : S1x128.Idx → EReal) slices_S1x128_S1x1_0_0) shapeCasts_S1x1_S_ j)
      ((V (Proc.devRef .tc main_v5) : S_.Idx → EReal) j)) one = _
  rw [scalar_of_lane _ 0 (0 : Fin 128) rfl, eq_ix0 j]

end Stage2

/-! ## The program's fold of buffer contents, read -/

section Fold
variable (m : (ℓ : Loc nD τ sig) → Buf (Elt Ideal) ℓ) (ρ : Dev nD → PrngReg) (c : Dev nD)

/-- Region 0's output row as its pipeline leaves it: the bin counts in lanes 0 to 9, the number of valid entries in
    lane 10. -/
abbrev Hst : S1x128.Idx → EReal := (dat0 (V0 m ρ) c).arrAt 3 cfg0.N
/-- Region 1's output row as its pipeline leaves it, from the contents the host operations before it leave. -/
abbrev Bce : S1x128.Idx → EReal := (dat1 (V4 m ρ) c).arrAt 4 cfg1.N

theorem W1_v0 : @Eq (S1x128.Idx → EReal) (W1 m ρ c (Proc.devRef .tc main_v0)) (Hst m ρ c) := W1_arr m ρ c 3
theorem W5_v26 : @Eq (S1x128.Idx → EReal) (W5 m ρ c (Proc.devRef .tc main_v26)) (Bce m ρ c) := W5_arr m ρ c 4
theorem W5_v5 : W5 m ρ c (Proc.devRef .tc main_v5) = W4 m ρ c (Proc.devRef .tc main_v5) :=
  W5_of_ne m ρ c main_v5 (by decide)

/-- The clamped total at region 1's entry. -/
theorem W4_v5 : @Eq (S_.Idx → EReal) (W4 m ρ c (Proc.devRef .tc main_v5))
    (fun _ => FloatOps.maximumf (F := Ideal) (φ := .f32) (Hst m ρ c (ix2 (0 : Fin 1) (10 : Fin 128))) one) := by
  show StableHlo.after (hostOps1_2 (F := Ideal)) (StableHlo.after (hostOps1_1 (F := Ideal)) (StableHlo.after (hostOps1 (F := Ideal)) (W1 m ρ c)))
    (Proc.devRef .tc main_v5) = _
  rw [ops1_2_v5, ops1_1_v5, ops1_v5]
  exact congrArg (fun X : S1x128.Idx → EReal => fun _ : S_.Idx => FloatOps.maximumf (F := Ideal) (φ := .f32) (X (ix2 (0 : Fin 1) (10 : Fin 128))) one) (W1_v0 m ρ c)

/-- The program's result: lane 0 of region 1's output row, over the number of valid entries clamped below by one, times one. -/
theorem result_read (i : S_.Idx) :
    (W6 m ρ c (Proc.devRef .tc main_v30) : S_.Idx → EReal) i
      = FloatOps.mulf (F := Ideal) (φ := .f32)
          (FloatOps.hostDivf (F := Ideal) (φ := .f32) (Bce m ρ c (ix2 (0 : Fin 1) (0 : Fin 128)))
            (FloatOps.maximumf (F := Ideal) (φ := .f32) (Hst m ρ c (ix2 (0 : Fin 1) (10 : Fin 128))) one)) one := by
  have e : @Eq (S_.Idx → EReal) (W6 m ρ c (Proc.devRef .tc main_v30)) _ := ops2_v30 (W5 m ρ c)
  rw [e]
  show FloatOps.mulf (F := Ideal) (φ := .f32) (FloatOps.hostDivf (F := Ideal) (φ := .f32)
    ((W5 m ρ c (Proc.devRef .tc main_v26) : S1x128.Idx → EReal) (ix2 (0 : Fin 1) (0 : Fin 128)))
    ((W5 m ρ c (Proc.devRef .tc main_v5) : S_.Idx → EReal) ix0)) one = _
  rw [W5_v26, W5_v5, W4_v5]

/-- The row region 1 reads as its fourth operand, at a lane below ten: where the bin's count is positive, the
    clamped total over the clamped count; zero elsewhere. -/
theorem aux_read_lane (b : Fin 10) :
    (V4 m ρ c main_v25 : S1x128.Idx → EReal) (lane b)
      = Scalar.select (FloatOps.cmpf (F := Ideal) (φ := .f32) .ogt (Hst m ρ c (lane b)) zero)
          (FloatOps.hostDivf (F := Ideal) (φ := .f32)
            (FloatOps.maximumf (F := Ideal) (φ := .f32) (Hst m ρ c (ix2 (0 : Fin 1) (10 : Fin 128))) one)
            (FloatOps.maximumf (F := Ideal) (φ := .f32) (Hst m ρ c (lane b)) one))
          zero := by
  show (StableHlo.after (hostOps1_2 (F := Ideal)) (StableHlo.after (hostOps1_1 (F := Ideal)) (StableHlo.after (hostOps1 (F := Ideal)) (W1 m ρ c)))
    (Proc.devRef .tc main_v25) : S1x128.Idx → EReal) (lane b) = _
  rw [ops1_2_v25_lane, ops1_1_v14, ops1_v7, ops1_v13, ops1_cst3]
  show Scalar.select (FloatOps.cmpf (F := Ideal) (φ := .f32) .ogt ((W1 m ρ c (Proc.devRef .tc main_v0) : S1x128.Idx → EReal) (lane b)) zero)
    (FloatOps.hostDivf (F := Ideal) (φ := .f32)
      (FloatOps.maximumf (F := Ideal) (φ := .f32) ((W1 m ρ c (Proc.devRef .tc main_v0) : S1x128.Idx → EReal) (ix2 (0 : Fin 1) (10 : Fin 128))) one)
      (FloatOps.maximumf (F := Ideal) (φ := .f32) ((W1 m ρ c (Proc.devRef .tc main_v0) : S1x128.Idx → EReal) (lane b)) one)) zero = _
  rw [W1_v0]

/-- … and at lane 10: one over the number of nonempty bins clamped below by one, that number being the initial zero
    plus the sum over the ten bins of the indicator "the count is positive". -/
theorem aux_read_lane10 :
    (V4 m ρ c main_v25 : S1x128.Idx → EReal) (ix2 (0 : Fin 1) (10 : Fin 128))
      = FloatOps.hostDivf (F := Ideal) (φ := .f32) one
          (FloatOps.maximumf (F := Ideal) (φ := .f32)
            (zero + ∑ i : S10.Idx, FloatOps.uitofp (F := Ideal) (w := 1) .f32
              (FloatOps.cmpf (F := Ideal) (φ := .f32) .ogt (Hst m ρ c (lane (i 0))) zero)) one) := by
  show (StableHlo.after (hostOps1_2 (F := Ideal)) (StableHlo.after (hostOps1_1 (F := Ideal)) (StableHlo.after (hostOps1 (F := Ideal)) (W1 m ρ c)))
    (Proc.devRef .tc main_v25) : S1x128.Idx → EReal) (ix2 (0 : Fin 1) (10 : Fin 128)) = _
  rw [ops1_2_v25_lane10, ops1_1_v9, ops1_v9]
  show FloatOps.hostDivf (F := Ideal) (φ := .f32) one (FloatOps.maximumf (F := Ideal) (φ := .f32)
    (zero + ∑ i : S10.Idx, FloatOps.uitofp (F := Ideal) (w := 1) .f32
      (FloatOps.cmpf (F := Ideal) (φ := .f32) .ogt ((W1 m ρ c (Proc.devRef .tc main_v0) : S1x128.Idx → EReal) (lane (i 0))) zero)) one) = _
  rw [W1_v0]

end Fold

/-! ## The arguments: no host operation and no region writes one -/

section Args
variable {F : FTy → Type} [FloatOps F]
variable (m : (ℓ : Loc nD τ sig) → Buf (Elt F) ℓ) (ρ : Dev nD → PrngReg) (c : Dev nD)

/-- Argument 0 at region 0's entry is the launch memory's. -/
theorem V0_main_arg0 : V0 m ρ c main_arg0 = m ((c.tc : Thread nD τ).loc main_arg0) := rfl
/-- Argument 0 at region 1's entry is still the launch memory's: region 0 reads it through an input window and the
    host operations between the regions do not write it. -/
theorem V4_main_arg0 : V4 m ρ c main_arg0 = m ((c.tc : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c.tc : Thread nD τ).loc main_arg0) := rfl

/-- Argument 1 at region 0's entry is the launch memory's. -/
theorem V0_main_arg1 : V0 m ρ c main_arg1 = m ((c.tc : Thread nD τ).loc main_arg1) := rfl
/-- Argument 1 at region 1's entry is still the launch memory's: region 0 reads it through an input window and the
    host operations between the regions do not write it. -/
theorem V4_main_arg1 : V4 m ρ c main_arg1 = m ((c.tc : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c.tc : Thread nD τ).loc main_arg1) := rfl

/-- Argument 2 at region 0's entry is the launch memory's. -/
theorem V0_main_arg2 : V0 m ρ c main_arg2 = m ((c.tc : Thread nD τ).loc main_arg2) := rfl
/-- Argument 2 at region 1's entry is still the launch memory's: region 0 reads it through an input window and the
    host operations between the regions do not write it. -/
theorem V4_main_arg2 : V4 m ρ c main_arg2 = m ((c.tc : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := (W1_arr m ρ c 2).trans (((dat0 (V0 m ρ) c).arrAt_in 2 rfl _).trans (A_eq0 (V0 m ρ) c 2))
    _ = m ((c.tc : Thread nD τ).loc main_arg2) := rfl

end Args

section FoldSum
variable (m : (ℓ : Loc nD τ sig) → Buf (Elt Ideal) ℓ) (ρ : Dev nD → PrngReg) (c : Dev nD)

/-- A ten-element vector's indices are its ten coordinates. -/
def idxEquiv10 : S10.Idx ≃ Fin 10 where
  toFun i := i 0
  invFun b := ix1 b
  left_inv i := (eq_ix1 i).symm
  right_inv _ := rfl

/-- Lane 10 of the row region 1 reads, with the sum taken over the ten bins by number. -/
theorem aux_read_lane10_fin :
    (V4 m ρ c main_v25 : S1x128.Idx → EReal) (ix2 (0 : Fin 1) (10 : Fin 128))
      = FloatOps.hostDivf (F := Ideal) (φ := .f32) one
          (FloatOps.maximumf (F := Ideal) (φ := .f32)
            (zero + ∑ b : Fin 10, FloatOps.uitofp (F := Ideal) (w := 1) .f32
              (FloatOps.cmpf (F := Ideal) (φ := .f32) .ogt (Hst m ρ c (lane b)) zero)) one) := by
  rw [aux_read_lane10]
  refine congrArg (fun s : EReal => FloatOps.hostDivf (F := Ideal) (φ := .f32) one (FloatOps.maximumf (F := Ideal) (φ := .f32) (zero + s) one)) ?_
  exact Fintype.sum_equiv idxEquiv10 _ _ fun i => rfl

end FoldSum

/-- info: 'Cert.KernelIdeal.HostSide.result_read' depends on axioms: [propext, Classical.choice, Quot.sound] -/
#guard_msgs in #print axioms result_read
/-- info: 'Cert.KernelIdeal.HostSide.aux_read_lane' depends on axioms: [propext, Classical.choice, Quot.sound] -/
#guard_msgs in #print axioms aux_read_lane
/-- info: 'Cert.KernelIdeal.HostSide.aux_read_lane10_fin' depends on axioms: [propext, Classical.choice, Quot.sound] -/
#guard_msgs in #print axioms aux_read_lane10_fin
/-- info: 'Cert.KernelIdeal.HostSide.V4_main_arg0' depends on axioms: [propext, Classical.choice, Quot.sound] -/
#guard_msgs in #print axioms V4_main_arg0

end Cert.KernelIdeal.HostSide

end
-- ==== Proof.HistStep.lean ====
/-
  The histogram pass, one grid point at a time.

  At a grid point the body reads one tile of 5000 rows by 16 lanes from each of the three arrays and leaves, in the
  output's [1, 128] staging row, the row it found there plus the tile's contribution: lane b (b below 10) gains the
  number of valid entries of the tile whose bin is b, lane 10 gains the number of valid entries, every other lane
  gains zero. At the first point the row is first cleared. This module names that function of the three tiles and of
  the row found, and shows that it is what the run's stores leave in either case of the body's conditional.
-/
import proofs.«155373_j51591147159894_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Hist

open Cert.KernelIdeal Cert.KernelIdeal.Gen

variable {F : FTy → Type} [FloatOps F]

theorem hz : (![0, 0] : Fin 2 → Nat) = fun _ => 0 := funext fun a => by fin_cases a <;> rfl

/-- The lane number of each entry of the output row. -/
abbrev lanes : IVec S1x128 32 := iota .tc S1x128 32 [1] iota_S1x128_d1_w32

/-- The row after a point: the row found, plus the tile's eleven counts each placed on its lane. The body's
    operations, in the order it applies them. -/
def step (x0 x1 x2 : Vec F S5000x16 .f32) (xo : Vec F S1x128 .f32) : FVec F S1x128 .f32 :=
  k0_pay1 (k0_pay3 x2) lanes
    (k0_pay12 (k0_pay3 x2) (k0_pay4 x0 x1) lanes
      (k0_pay9 (k0_pay3 x2) (k0_pay4 x0 x1) lanes
        (k0_pay6 (k0_pay3 x2) (k0_pay4 x0 x1) lanes (k0_pay5 x0 x1 x2) 1#32)
        (k0_pay7 lanes) (k0_pay8 (k0_pay3 x2) (k0_pay4 x0 x1)))
      (k0_pay10 (k0_pay3 x2) (k0_pay4 x0 x1)) (k0_pay11 lanes))
    (k0_pay13 (k0_pay3 x2) (k0_pay4 x0 x1)) xo

/-- The cleared row. -/
abbrev cleared : FVec F S1x128 .f32 := k0_pay2

/-- Away from the first point the body leaves the step of the row it found. -/
theorem out_B (c : Dev nD) (i : grid0.Coords) (a1 : Memref sig .tc .vmem S5000x16 .f32) (h1 : a1.IsWhole)
    (a2 : Memref sig .tc .vmem S5000x16 .f32) (h2 : a2.IsWhole) (a3 : Memref sig .tc .vmem S5000x16 .f32) (h3 : a3.IsWhole)
    (a4 : Memref sig .tc .vmem S1x128 .f32) (h4 : a4.IsWhole) (hc : ¬cond0_0 i)
    (x0 x1 x2 : Vec F S5000x16 .f32) (xo : Vec F S1x128 .f32) :
    out0_B_3 c i a1 h1 a2 h2 a3 h3 a4 h4 hc x0 x1 x2 xo = step x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S5000x16) hz, View.ld_unit_zero (S := S1x128) hz]
  rfl

/-- At the first point the body clears the row, reads the cleared row back and leaves its step. -/
theorem out_A (c : Dev nD) (i : grid0.Coords) (a1 : Memref sig .tc .vmem S5000x16 .f32) (h1 : a1.IsWhole)
    (a2 : Memref sig .tc .vmem S5000x16 .f32) (h2 : a2.IsWhole) (a3 : Memref sig .tc .vmem S5000x16 .f32) (h3 : a3.IsWhole)
    (a4 : Memref sig .tc .vmem S1x128 .f32) (h4 : a4.IsWhole) (hc : cond0_0 i)
    (x0 x1 x2 : Vec F S5000x16 .f32) :
    out0_A_3 c i a1 h1 a2 h2 a3 h3 a4 h4 hc x0 x1 x2 = step x0 x1 x2 cleared := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x16) hz, View.ld_unit_zero (S := S1x128) hz]
  rfl

end Cert.KernelIdeal.Hist

end
-- ==== Proof.HistRun.lean ====
/-
  The histogram pass over the whole grid.

  The output row is carried from point to point: cleared and stepped at the first point, stepped at each later one,
  and written back to its array once, after the last of the 400 points. So the array ends holding the row after point
  399 of the recursion "step the previous row with this point's three tiles".
-/
import proofs.«155373_j51591147159894_2_alg».proof.Proof.HistStep

set_option maxRecDepth 16384

noncomputable section

open Idealize.ShloMosaic Idealize.ShloMosaic.TcCoe Idealize.SL.Sem
open Idealize.ShloMosaic.Pipeline (Dat)

namespace Cert.KernelIdeal.Hist

open Cert.KernelIdeal Cert.KernelIdeal.Gen

variable {F : FTy → Type} [FloatOps F]
variable (V : (c : Dev nD) → (b : Ref sig .tc) → Buf (Elt F) ((c : Thread nD τ).loc b))

/-- The row after point n: the step of the row after point n - 1 (the cleared row before point 0) with the three
    tiles of point n. -/
def rowAfter (c : Dev nD) : (n : ℕ) → n < cfg0.N → Vec F S1x128 .f32
  | 0, h => step (iblk0 V c 0 ⟨0, h⟩) (iblk0 V c 1 ⟨0, h⟩) (iblk0 V c 2 ⟨0, h⟩) cleared
  | n + 1, h => step (iblk0 V c 0 ⟨n + 1, h⟩) (iblk0 V c 1 ⟨n + 1, h⟩) (iblk0 V c 2 ⟨n + 1, h⟩)
      (rowAfter c n (Nat.lt_of_succ_lt h))

/-- What the staging row holds after point n is that row: by induction on the point. -/
theorem outsAt_eq (c : Dev nD) : ∀ (n : ℕ) (h : n < cfg0.N), outsAt0 V c n h = rowAfter V c n h
  | 0, h => (outsAt0_A V c ⟨0, h⟩ rfl).trans (out_A ..)
  | n + 1, h => by
    have hN : cfg0.N = 400 := N_0
    have hB : ¬(⟨n + 1, h⟩ : Fin cfg0.N).val % 400 = 0 := by dsimp only; omega
    rw [outsAt0_B V c ⟨n + 1, h⟩ hB, out_B]
    show step _ _ _ (outsAt0 V c n _) = step _ _ _ (rowAfter V c n _)
    rw [outsAt_eq c n]

/-- The last point of the grid. -/
abbrev lastPt : Fin cfg0.N := ⟨399, by rw [show cfg0.N = 400 from N_0]; decide⟩

/-- The row after the last point, as contents of the output array (its one block is the whole array). -/
abbrev finalRow (c : Dev nD) : Buf (Elt F) ((c : Thread nD τ).loc main_v0) := rowAfter V c 399 lastPt.isLt

/-- The one write-back, at the last point, writes that row. -/
theorem flushed_eq (c : Dev nD) (t : Fin cfg0.N) (hf : (cfg0.win 3).flush t = true) :
    (dat0 V c).flushed 3 t = ((cfg0.win 3).blk t).view.read (Elt F) (finalRow V c) := by
  have hN : cfg0.N = 400 := N_0
  have h3 : t.val = 399 := by have := (flush0_3 t).mp hf; have := t.isLt; omega
  obtain rfl : t = lastPt := Fin.ext h3
  show (cfg0.win 3).cut (grid0.coords lastPt) ((dat0 V c).after 3 lastPt) = _
  rw [after0_3, outsAt_eq]
  have hz' : (fun a => win0_3.index lastPt a * main_v0.ty.shape.size a) = fun _ => 0 :=
    funext fun a => by fin_cases a <;> decide +kernel
  exact (Memref.read_access_unit_zero (Elt F) main_v0 hz' (fun a => by rw [congrFun hz' a]; simp) (finalRow V c)).symm

/-- So the output array ends holding the row after the last point. -/
theorem final_eq (c : Dev nD) : (dat0 V c).arrAt 3 cfg0.N = finalRow V c :=
  (dat0 V c).arrAt_eq_of_cover 3 (finalRow V c) (flushed_eq V c) fun i =>
    ⟨lastPt, (flush0_3 lastPt).mpr rfl, by
      show i ∈ ((View.whole main_v0).slice (win0_3.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 128 from by decide +kernel]
        omega⟩

end Cert.KernelIdeal.Hist

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibTileTotal.lean ====
/-
  The sum of all entries of a tile, taken the way a vector unit takes it.

  To add up an [a, b] tile a kernel first adds along the lanes (one number per row), stands the a row sums up as an
  [a, 1] column, adds along the rows (one number), reshapes that [1] to [1, 1] and extracts its only entry. At the
  extended reals addition is commutative and associative with no exception at the infinities, so the result is the
  double sum over rows and lanes of the tile's entries, whatever they are.
-/
import Idealize.ShloMosaic.PureOps.Ideal.Laws
import Idealize.ShloMosaic.Lib.Pipeline.Value
import Idealize.ShloMosaic.Lib.ValueIdx
import proofs.«155373_j51591147159894_2_alg».proof.Proof.LibKeepdimsColumn

noncomputable section

namespace Cert.Lib.TileTotal

open Idealize.ShloMosaic Idealize.ShloMosaic.ValueIdx

/-- Row p's lane sum: the reduction along the lanes read at row p is the sum over the lanes q of entry (p, q). -/
theorem lane_sum_at {a b : Nat} (v : FVec Ideal ⟨2, ![a, b]⟩ .f32)
    (h1 : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h1 hφ hacc (ix1 p) = ∑ q : Fin b, v (ix2 p q) := by
  refine (Ideal.multiReduction_add_single v 0x00000000#32 h1 hφ hacc (ix1 p)).trans ?_
  show ∑ k : Fin b, v (h1.lift (ix1 p) k) = _
  refine Finset.sum_congr rfl fun k _ => congrArg v ?_
  funext d
  refine Fin.ext ?_
  match d with
  | ⟨0, _⟩ => rfl
  | ⟨1, _⟩ => rfl

/-- The whole tile: lanes first, then rows, then the single entry extracted. -/
theorem tile_total {a b : Nat} (v : FVec Ideal ⟨2, ![a, b]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc1 : (⟨1, ![1]⟩ : Shape).ShapeCasts ⟨2, ![1, 1]⟩)
    (hφ : FKind.Formats .f32) (hacc : (0x00000000#32 : BitVec 32) = 0x00000000#32)
    (hpos : ∀ d, (![0, 0] : Fin 2 → Nat) d < (⟨2, ![1, 1]⟩ : Shape).size d) :
    extractAt ![0, 0]
        (shapeCast ⟨2, ![1, 1]⟩
          (multiReduction .add [0] ⟨1, ![1]⟩
            (shapeCast ⟨2, ![a, 1]⟩ (multiReduction .add [1] ⟨1, ![a]⟩ v 0x00000000#32 h1 hφ hacc) hc)
            0x00000000#32 h0 hφ hacc) hc1) hpos
      = ∑ p : Fin a, ∑ q : Fin b, v (ix2 p q) := by
  show shapeCast ⟨2, ![1, 1]⟩ _ hc1 (fun d => (⟨(![0, 0] : Fin 2 → Nat) d, hpos d⟩ : Fin ((⟨2, ![1, 1]⟩ : Shape).size d))) = _
  have e : (fun d => (⟨(![0, 0] : Fin 2 → Nat) d, hpos d⟩ : Fin ((⟨2, ![1, 1]⟩ : Shape).size d)))
      = ix2 (n0 := 1) (n1 := 1) ⟨0, Nat.one_pos⟩ ⟨0, Nat.one_pos⟩ := by
    funext d
    refine Fin.ext ?_
    match d with
    | ⟨0, _⟩ => rfl
    | ⟨1, _⟩ => rfl
  rw [e, Cert.Lib.KeepdimsColumn.column_cast_at]
  refine (Ideal.multiReduction_add_total _ 0x00000000#32 h0
    (fun d => by obtain rfl : d = 0 := Subsingleton.elim _ _; rfl) hφ hacc _).trans ?_
  rw [sum_idx2]
  refine Finset.sum_congr rfl fun p _ => ?_
  rw [Fin.sum_univ_one]
  show shapeCast ⟨2, ![a, 1]⟩ _ hc (ix2 (n0 := a) (n1 := 1) p ⟨0, Nat.one_pos⟩) = _
  rw [Cert.Lib.KeepdimsColumn.column_cast_at, lane_sum_at]

end Cert.Lib.TileTotal

end
-- ==== Proof.HistLane.lean ====
/-
  The histogram pass at one lane.

  Lane l of the row after a point is lane l of the row found plus eleven products: for each bin b below 10 the number
  of valid entries of the tile whose bin is b, times the 0/1 mark "l is b"; and the number of valid entries times
  the mark "l is 10". A tile's number is taken as the body takes it (lanes, then rows); at the extended reals it is
  the double sum over the tile. Exactly one mark is 1 when l is at most 10 and none otherwise, so lane l gains the
  l-th of the eleven numbers, or nothing.
-/
import proofs.«155373_j51591147159894_2_alg».proof.Proof.HistStep
import proofs.«155373_j51591147159894_2_alg».proof.Proof.LibTileTotal
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Hist

open Cert.KernelIdeal Cert.KernelIdeal.Gen

/-- Lane l of the [1, 128] row. -/
abbrev at1 (l : Fin 128) : S1x128.Idx := ix2 (n0 := 1) (n1 := 128) ⟨0, Nat.one_pos⟩ l

/-- The total of a tile as the body takes it: along the lanes, then along the rows, then the one entry. -/
def tileSum (v : FVec Ideal S5000x16 .f32) : Ideal .f32 :=
  extractAt ![0, 0] (shapeCast S1x1 (multiReduction .add [0] S1 (shapeCast S5000x1
    (multiReduction .add [1] S5000 v 0x00000000#32 reduces_S5000x16_S5000 (.inl rfl) rfl) shapeCasts_S5000_S5000x1)
    0x00000000#32 reduces_S5000x1_S1 (.inl rfl) rfl) shapeCasts_S1_S1x1) inpos_S1x1_p0_0

/-- It is the double sum over rows and lanes. -/
theorem tileSum_eq (v : FVec Ideal S5000x16 .f32) : tileSum v = ∑ p : Fin 5000, ∑ q : Fin 16, v (ix2 p q) :=
  Cert.Lib.TileTotal.tile_total v _ _ _ _ (.inl rfl) rfl _

/-- The entries v12 whose bin word v20 is b, zero elsewhere. -/
def sel (v12 : FVec Ideal S5000x16 .f32) (v20 : IVec S5000x16 32) (b : BitVec 32) : FVec Ideal S5000x16 .f32 :=
  select (cmpi .eq v20 (broadcast S5000x16 b)) v12 (broadcast S5000x16 (Scalar.ofBits .f32 0x00000000#32))

/-- Lane l's 0/1 mark for the word b. -/
def mark (l : Fin 128) (b : BitVec 32) : Ideal .f32 :=
  FloatOps.sitofp .f32 ((IntOp.cmpi .eq (lanes (at1 l)) b).setWidth 32)

variable (v12 : FVec Ideal S5000x16 .f32) (v20 : IVec S5000x16 32) (l : Fin 128)

theorem pay5_at (x0 x1 x2 : Vec Ideal S5000x16 .f32) :
    k0_pay5 x0 x1 x2 (at1 l)
      = (Scalar.ofBits .f32 0x00000000#32 : Ideal .f32) + tileSum (sel (k0_pay3 x2) (k0_pay4 x0 x1) 0#32) * mark l 0#32 := rfl

theorem pay6_at (v38 : FVec Ideal S1x128 .f32) :
    k0_pay6 v12 v20 lanes v38 1#32 (at1 l)
      = (v38 (at1 l) + tileSum (sel v12 v20 1#32) * mark l 1#32) + tileSum (sel v12 v20 2#32) * mark l 2#32 := rfl

theorem pay7_at : k0_pay7 (F := Ideal) lanes (at1 l) = mark l 3#32 := rfl

theorem pay8_at : k0_pay8 v12 v20 (at1 l) = tileSum (sel v12 v20 3#32) := rfl

theorem pay9_at (v70 v83 v84 : FVec Ideal S1x128 .f32) :
    k0_pay9 v12 v20 lanes v70 v83 v84 (at1 l)
      = ((v70 (at1 l) + v84 (at1 l) * v83 (at1 l)) + tileSum (sel v12 v20 4#32) * mark l 4#32)
        + tileSum (sel v12 v20 5#32) * mark l 5#32 := rfl

theorem pay10_eq : k0_pay10 v12 v20 = tileSum (sel v12 v20 6#32) := rfl

theorem pay12_at (v118 : FVec Ideal S1x128 .f32) (v127 : Ideal .f32) :
    k0_pay12 v12 v20 lanes v118 v127 (k0_pay11 lanes) (at1 l)
      = ((v118 (at1 l) + v127 * mark l 6#32) + tileSum (sel v12 v20 7#32) * mark l 7#32)
        + tileSum (sel v12 v20 8#32) * mark l 8#32 := rfl

theorem pay13_eq : k0_pay13 v12 v20 = tileSum (sel v12 v20 9#32) := rfl

theorem pay1_at (v166 : FVec Ideal S1x128 .f32) (v175 : Ideal .f32) (v195 : Vec Ideal S1x128 .f32) :
    k0_pay1 v12 lanes v166 v175 v195 (at1 l)
      = shapeCast S1x128 v195 shapeCasts_S1x128_S1x128 (at1 l)
        + ((v166 (at1 l) + v175 * mark l 9#32) + tileSum v12 * mark l 10#32) := rfl

/-- The zero word the body starts its row of gains from is the extended real 0. -/
theorem zero_word : (Scalar.ofBits .f32 0x00000000#32 : Ideal .f32) = (0 : EReal) := Ideal.ofBits_zero_f32

/-- Lane l of the iota holds the number l. -/
theorem lanes_at : lanes (at1 l) = BitVec.ofNat 32 l.val := by
  show BitVec.ofNat 32 (0 * 128 + l.val) = _
  rw [Nat.zero_mul, Nat.zero_add]

/-- The mark for the number n (below 128) is 1 on lane n and 0 on every other lane. -/
theorem mark_eq (n : Nat) (hn : n < 128) : mark l (BitVec.ofNat 32 n) = if l.val = n then (1 : EReal) else 0 := by
  unfold mark
  rw [lanes_at]
  show ((((BitVec.ofBool (BitVec.ofNat 32 l.val == BitVec.ofNat 32 n)).setWidth 32).toInt : ℝ) : EReal) = _
  by_cases h : l.val = n
  · rw [if_pos h, h, beq_self_eq_true]
    have e : ((BitVec.ofBool true).setWidth 32).toInt = 1 := by decide
    rw [e]; simp
  · rw [if_neg h]
    have hb : (BitVec.ofNat 32 l.val == BitVec.ofNat 32 n) = false := by
      rw [beq_eq_false_iff_ne]
      intro e
      apply h
      have e' := congrArg BitVec.toNat e
      simp only [BitVec.toNat_ofNat] at e'
      have := l.isLt
      omega
    rw [hb]
    have e : ((BitVec.ofBool false).setWidth 32).toInt = 0 := by decide
    rw [e]; simp

/-- Eleven numbers each times the mark of its own lane, added up from zero: lane l's number if l is at most 10,
    nothing otherwise (a product with 0 is 0 also at the infinities). -/
theorem marked_sum (T : ℕ → EReal) (n : ℕ) :
    (((((((((((0 : EReal)
      + T 0 * (if n = 0 then 1 else 0)) + T 1 * (if n = 1 then 1 else 0)) + T 2 * (if n = 2 then 1 else 0))
      + T 3 * (if n = 3 then 1 else 0)) + T 4 * (if n = 4 then 1 else 0)) + T 5 * (if n = 5 then 1 else 0))
      + T 6 * (if n = 6 then 1 else 0)) + T 7 * (if n = 7 then 1 else 0)) + T 8 * (if n = 8 then 1 else 0))
      + T 9 * (if n = 9 then 1 else 0)) + T 10 * (if n = 10 then 1 else 0)
      = if n < 11 then T n else 0 := by
  by_cases h : n < 11
  · rw [if_pos h]
    interval_cases n <;> simp
  · rw [if_neg h, if_neg (by omega), if_neg (by omega), if_neg (by omega), if_neg (by omega), if_neg (by omega),
      if_neg (by omega), if_neg (by omega), if_neg (by omega), if_neg (by omega), if_neg (by omega), if_neg (by omega)]
    simp

/-- The tile's eleven numbers: for n below 10 the valid entries of bin n, for n = 10 the valid entries. -/
def tileGain (x0 x1 x2 : Vec Ideal S5000x16 .f32) (n : ℕ) : EReal :=
  if n = 10 then tileSum (k0_pay3 x2) else tileSum (sel (k0_pay3 x2) (k0_pay4 x0 x1) (BitVec.ofNat 32 n))

/-- THE STEP AT A LANE: the row found there, plus the tile's number for that lane. -/
theorem step_at (x0 x1 x2 : Vec Ideal S5000x16 .f32) (xo : Vec Ideal S1x128 .f32) :
    step (F := Ideal) x0 x1 x2 xo (at1 l) = xo (at1 l) + (if l.val < 11 then tileGain x0 x1 x2 l.val else 0) := by
  unfold step
  rw [pay1_at, pay12_at, pay9_at, pay6_at, pay5_at, pay7_at, pay8_at, pay10_eq, pay13_eq, shapeCast_self, zero_word,
    mark_eq l 0 (by decide), mark_eq l 1 (by decide), mark_eq l 2 (by decide), mark_eq l 3 (by decide),
    mark_eq l 4 (by decide), mark_eq l 5 (by decide), mark_eq l 6 (by decide), mark_eq l 7 (by decide),
    mark_eq l 8 (by decide), mark_eq l 9 (by decide), mark_eq l 10 (by decide)]
  exact congrArg (xo (at1 l) + ·) (marked_sum (tileGain x0 x1 x2) l.val)

end Cert.KernelIdeal.Hist

end
-- ==== Proof.HistSum.lean ====
/-
  The histogram pass: a lane of the final row as a sum over the grid.

  Each point adds its tile's number for the lane to what the lane held, starting from the cleared row. Addition of
  extended reals is associative, so after the last point the lane holds zero plus the sum over the 400 points of
  their tiles' numbers.
-/
import proofs.«155373_j51591147159894_2_alg».proof.Proof.HistRun
import proofs.«155373_j51591147159894_2_alg».proof.Proof.HistLane

set_option maxRecDepth 16384

noncomputable section

open Idealize.ShloMosaic Idealize.ShloMosaic.TcCoe Idealize.SL.Sem Idealize.ShloMosaic.ValueIdx

namespace Cert.KernelIdeal.Hist

open Cert.KernelIdeal Cert.KernelIdeal.Gen

variable (V : (c : Dev nD) → (b : Ref sig .tc) → Buf (Elt Ideal) ((c : Thread nD τ).loc b))

theorem N400 : cfg0.N = 400 := N_0

/-- Point number t of the grid. -/
abbrev pt (t : ℕ) (ht : t < 400) : Fin cfg0.N := ⟨t, by rw [N400]; exact ht⟩

/-- The three tiles of a point. -/
def tile0 (c : Dev nD) (t : Fin cfg0.N) : Vec Ideal S5000x16 .f32 := (iblk0 (F := Ideal) V c 0 t : Vec Ideal S5000x16 .f32)
def tile1 (c : Dev nD) (t : Fin cfg0.N) : Vec Ideal S5000x16 .f32 := (iblk0 (F := Ideal) V c 1 t : Vec Ideal S5000x16 .f32)
def tile2 (c : Dev nD) (t : Fin cfg0.N) : Vec Ideal S5000x16 .f32 := (iblk0 (F := Ideal) V c 2 t : Vec Ideal S5000x16 .f32)

/-- What a point adds to lane l. -/
def pointGain (c : Dev nD) (l : Fin 128) (t : Fin cfg0.N) : EReal :=
  if l.val < 11 then tileGain (tile0 V c t) (tile1 V c t) (tile2 V c t) l.val else 0

/-- What point t adds to lane l (nothing for a number that is not a point). -/
def gainAt (c : Dev nD) (l : Fin 128) (t : ℕ) : EReal :=
  if ht : t < 400 then pointGain V c l (pt t ht) else 0

/-- The row after a point is the step of the row before with the point's tiles. -/
theorem rowAfter_zero (c : Dev nD) (h : 0 < cfg0.N) :
    rowAfter V c 0 h = step (F := Ideal) (tile0 V c ⟨0, h⟩) (tile1 V c ⟨0, h⟩) (tile2 V c ⟨0, h⟩) (cleared (F := Ideal)) := rfl
theorem rowAfter_succ (c : Dev nD) (n : ℕ) (h : n + 1 < cfg0.N) :
    rowAfter V c (n + 1) h = step (F := Ideal) (tile0 V c ⟨n + 1, h⟩) (tile1 V c ⟨n + 1, h⟩) (tile2 V c ⟨n + 1, h⟩)
      (rowAfter V c n (Nat.lt_of_succ_lt h)) := rfl

/-- Lane l of the row after point n: zero plus the gains of points 0 to n. -/
theorem rowAfter_at (c : Dev nD) (l : Fin 128) :
    ∀ (n : ℕ) (h : n < cfg0.N), rowAfter V c n h (at1 l) = 0 + ∑ t ∈ Finset.range (n + 1), gainAt V c l t
  | 0, h => by
    have hc : (cleared (F := Ideal)) (at1 l) = (0 : EReal) := zero_word
    have e : gainAt V c l 0 = pointGain V c l ⟨0, h⟩ := by unfold gainAt; rw [dif_pos (by decide : 0 < 400)]
    rw [rowAfter_zero, step_at, Finset.sum_range_one, hc, e]
    rfl
  | n + 1, h => by
    have hn : n + 1 < 400 := by have := h; rw [N400] at this; exact this
    have e : gainAt V c l (n + 1) = pointGain V c l ⟨n + 1, h⟩ := by unfold gainAt; rw [dif_pos hn]
    rw [rowAfter_succ, step_at, rowAfter_at c l n, Finset.sum_range_succ _ (n + 1), add_assoc, e]
    rfl

/-- Lane l of the row after the last point: zero plus the sum over all 400 points. -/
theorem finalRow_at (c : Dev nD) (l : Fin 128) :
    finalRow V c (at1 l) = 0 + ∑ t : Fin 400, pointGain V c l (pt t.val t.isLt) := by
  show rowAfter V c 399 _ (at1 l) = _
  have e : ∑ t ∈ Finset.range (399 + 1), gainAt V c l t = ∑ t : Fin 400, pointGain V c l (pt t.val t.isLt) := by
    rw [← Fin.sum_univ_eq_sum_range (gainAt V c l) 400]
    refine Finset.sum_congr rfl fun t _ => ?_
    unfold gainAt
    rw [dif_pos t.isLt]
  rw [rowAfter_at, e]

end Cert.KernelIdeal.Hist

end
-- ==== Proof.TileEntries.lean ====
/-
  The kernel's tile payloads agree, entry by entry, with the reference's stages.

  Both programs compute the same elementwise functions of the three input arrays: the validity bit and its value as a
  number, the bin (ten times the distance between the logistic of the prediction and the target, floored, clamped
  to 0 … 9), and the loss term max(x, 0) − x·t + log1p(exp(−|x|)). The kernel works on a tile and the reference on
  the whole array; where a tile entry and an array entry hold the same inputs, the results are the same extended
  reals. The two texts differ only in spelling: the kernel converts the validity bit through a 32-bit integer read
  signed, the reference reads it unsigned (a bit is 0 or 1 either way); the kernel's logistic is the reference's
  1 / (1 + exp(−x)); the kernel subtracts from zero where the reference negates.
-/
import proofs.«155373_j51591147159894_2_alg».proof.Proof.Gen.KernelIdeal.Skeleton
import proofs.«155373_j51591147159894_2_alg».proof.Proof.RefRead
import Idealize.ShloMosaic.PureOps.Ideal.Laws
import Idealize.ShloMosaic.Lib.IdealHost

set_option maxRecDepth 16384

noncomputable section

namespace Cert.Tile

open Idealize.ShloMosaic
open Cert.KernelIdeal.Gen
open Cert.ReferenceIdeal (S2000000x16)
open Cert.KernelIdeal (S5000x16)

/-- The words of 0.0, 1.0 and 10.0 as ideal values. -/
abbrev w0 : EReal := FloatOps.ofBits (F := Ideal) .f32 0x00000000#32
abbrev w1 : EReal := FloatOps.ofBits (F := Ideal) .f32 0x3F800000#32
abbrev w10 : EReal := FloatOps.ofBits (F := Ideal) .f32 0x41200000#32

/-- A bit widened to 32 bits and read signed is the bit read unsigned. -/
theorem bit_signed_eq_unsigned (b : BitVec 1) : (((b.setWidth 32).toInt : ℝ) : EReal) = ((b.toNat : ℝ) : EReal) := by
  rcases BitVec.eq_zero_or_eq_one b with rfl | rfl
  · have e1 : (BitVec.setWidth 32 0#1).toInt = 0 := by decide
    have e2 : (0#1).toNat = 0 := by decide
    rw [e1, e2]; simp
  · have e1 : (BitVec.setWidth 32 1#1).toInt = 1 := by decide
    have e2 : (1#1).toNat = 1 := by decide
    rw [e1, e2]; simp

section Entries
variable (x0 x1 x2 : Vec Ideal S5000x16 .f32)
variable (X0 X1 X2 : (⟨S2000000x16, .f32⟩ : BufTy).Contents (Elt Ideal))
variable (i : S5000x16.Idx) (j : S2000000x16.Idx)

/-! ### Each side read at an entry -/

theorem k1_pay3_apply : k1_pay3 (F := Ideal) x2 i = FloatOps.cmpf (F := Ideal) (φ := .f32) .ogt (x2 i) w0 := rfl
theorem ref_v9_apply : Cert.ReferenceIdeal.ReadP.val_main_v9 (F := Ideal) X2 j
    = FloatOps.cmpf (F := Ideal) (φ := .f32) .ogt (X2 j) w0 := rfl

theorem k0_pay3_apply : k0_pay3 (F := Ideal) x2 i
    = ((((FloatOps.cmpf (F := Ideal) (φ := .f32) .ogt (x2 i) w0).setWidth 32).toInt : ℝ) : EReal) := rfl
theorem ref_v10_apply : Cert.ReferenceIdeal.ReadP.val_main_v10 (F := Ideal) X2 j
    = (((FloatOps.cmpf (F := Ideal) (φ := .f32) .ogt (X2 j) w0).toNat : ℝ) : EReal) := rfl

/-- The bin of an entry, as a function of the prediction and the target. -/
def binOf (x t : EReal) : BitVec 32 :=
  IntOp.minsi 9#32 (IntOp.maxsi 0#32 (FloatOps.fptosi (F := Ideal) (φ := .f32) 32
    (FloatOps.floor (F := Ideal) (φ := .f32) (FloatOps.mulf (F := Ideal) (φ := .f32)
      (FloatOps.absf (F := Ideal) (φ := .f32) (FloatOps.subf (F := Ideal) (φ := .f32) (FloatOps.logistic (F := Ideal) (φ := .f32) x) t)) w10))))

theorem k0_pay4_apply : k0_pay4 (F := Ideal) x0 x1 i = binOf (x0 i) (x1 i) := rfl
theorem k1_pay4_apply : k1_pay4 (F := Ideal) x0 x1 i = binOf (x0 i) (x1 i) := rfl
theorem ref_v17_apply : Cert.ReferenceIdeal.ReadP.val_main_v17 (F := Ideal) X0 X1 j = binOf (X0 j) (X1 j) := by
  have h1 : FloatOps.ofBits (F := Ideal) .f32 0x3F800000#32 = (1 : EReal) := Ideal.ofBits_one_f32
  simp only [Cert.ReferenceIdeal.ReadP.val_main_v17_apply, Cert.ReferenceIdeal.ReadP.val_main_call0_v4_apply, Cert.ReferenceIdeal.ReadP.val_main_call0_v3_apply, Cert.ReferenceIdeal.ReadP.val_main_c_5_apply, Cert.ReferenceIdeal.ReadP.val_main_call0_v2_apply, Cert.ReferenceIdeal.ReadP.val_main_call0_v1_apply, Cert.ReferenceIdeal.ReadP.val_main_call0_v0_apply, Cert.ReferenceIdeal.ReadP.val_main_c_apply, Cert.ReferenceIdeal.ReadP.val_main_v16_apply, Cert.ReferenceIdeal.ReadP.val_main_v15_apply, Cert.ReferenceIdeal.ReadP.val_main_v14_apply, Cert.ReferenceIdeal.ReadP.val_main_v13_apply, Cert.ReferenceIdeal.ReadP.val_main_cst_4_apply, Cert.ReferenceIdeal.ReadP.val_main_v7_apply, Cert.ReferenceIdeal.ReadP.val_main_v6_apply, Cert.ReferenceIdeal.ReadP.val_main_v5_apply, Cert.ReferenceIdeal.ReadP.val_main_v4_apply, Cert.ReferenceIdeal.ReadP.val_main_cst_0_apply, Cert.ReferenceIdeal.ReadP.val_main_v3_apply, Cert.ReferenceIdeal.ReadP.val_main_v2_apply, Cert.ReferenceIdeal.ReadP.val_main_cst_apply, Cert.ReferenceIdeal.ReadP.val_main_v1_apply, Cert.ReferenceIdeal.ReadP.val_main_v0_apply]
  rw [h1]
  rfl

/-- The loss term of an entry, as the kernel computes it. -/
def lossTile (x0 x1 : Vec Ideal S5000x16 .f32) : FVec Ideal S5000x16 .f32 :=
  addf (subf (maximumf x0 (broadcast S5000x16 (Scalar.ofBits .f32 0x00000000#32))) (mulf x0 x1))
    (log1p (exp (subf (broadcast S5000x16 (Scalar.ofBits .f32 0x00000000#32)) (absf x0))))

theorem lossTile_apply : lossTile x0 x1 i
    = max (x0 i) w0 - x0 i * x1 i + Ideal.log1p (Ideal.exp (w0 - max (x0 i) (-(x0 i)))) := rfl
theorem ref_v52_apply : Cert.ReferenceIdeal.ReadP.val_main_v52 (F := Ideal) X0 X1 j
    = max (X0 j) w0 - X0 j * X1 j + Ideal.log1p (Ideal.exp (-(max (X0 j) (-(X0 j))))) := by
  simp only [Cert.ReferenceIdeal.ReadP.val_main_v52_apply, Cert.ReferenceIdeal.ReadP.val_main_v47_apply, Cert.ReferenceIdeal.ReadP.val_main_v45_apply, Cert.ReferenceIdeal.ReadP.val_main_v44_apply, Cert.ReferenceIdeal.ReadP.val_main_cst_15_apply, Cert.ReferenceIdeal.ReadP.val_main_v46_apply, Cert.ReferenceIdeal.ReadP.val_main_v51_apply, Cert.ReferenceIdeal.ReadP.val_main_v50_apply, Cert.ReferenceIdeal.ReadP.val_main_v49_apply, Cert.ReferenceIdeal.ReadP.val_main_v48_apply]
  rfl

/-! ### The agreements -/

/-- The validity bit. -/
theorem valid_bit (h2 : x2 i = X2 j) : k1_pay3 (F := Ideal) x2 i = Cert.ReferenceIdeal.ReadP.val_main_v9 (F := Ideal) X2 j := by
  rw [k1_pay3_apply, ref_v9_apply, h2]

/-- The validity bit as a number. -/
theorem valid_f (h2 : x2 i = X2 j) : k0_pay3 (F := Ideal) x2 i = Cert.ReferenceIdeal.ReadP.val_main_v10 (F := Ideal) X2 j := by
  rw [k0_pay3_apply, ref_v10_apply, h2, bit_signed_eq_unsigned]

/-- The bin, in the histogram pass and in the loss pass. -/
theorem bin0 (h0 : x0 i = X0 j) (h1 : x1 i = X1 j) : k0_pay4 (F := Ideal) x0 x1 i = Cert.ReferenceIdeal.ReadP.val_main_v17 (F := Ideal) X0 X1 j := by
  rw [k0_pay4_apply, ref_v17_apply, h0, h1]
theorem bin1 (h0 : x0 i = X0 j) (h1 : x1 i = X1 j) : k1_pay4 (F := Ideal) x0 x1 i = Cert.ReferenceIdeal.ReadP.val_main_v17 (F := Ideal) X0 X1 j := by
  rw [k1_pay4_apply, ref_v17_apply, h0, h1]

/-- The loss term. -/
theorem loss (h0 : x0 i = X0 j) (h1 : x1 i = X1 j) : lossTile x0 x1 i = Cert.ReferenceIdeal.ReadP.val_main_v52 (F := Ideal) X0 X1 j := by
  rw [lossTile_apply, ref_v52_apply, h0, h1, show (w0 : EReal) = 0 from Ideal.ofBits_zero_f32, zero_sub]

end Entries

end Cert.Tile

end
-- ==== Proof.TileBlocks.lean ====
/-
  The blocks of the input windows, entry by entry.

  Each of the three big inputs is cut into 400 tiles of 5000 rows; at grid point t a region's input window w holds
  tile t of argument w, so its entry (p, q) is the argument's entry (5000 t + p, q). Region 1's fourth window holds the
  whole [1, 128] row of weights at every point.
-/
import proofs.«155373_j51591147159894_2_alg».proof.Proof.Gen.KernelIdeal.Frame
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-- Row p of tile t is a row of the array. -/
theorem row_lt0 (t : Fin cfg0.N) (p : Fin 5000) : t.val * 5000 + p.val < 2000000 := by
  have hN : cfg0.N = 400 := N_0
  have h := t.isLt
  have := p.isLt; omega
theorem row_lt1 (t : Fin cfg1.N) (p : Fin 5000) : t.val * 5000 + p.val < 2000000 := by
  have hN : cfg1.N = 400 := N_1
  have h := t.isLt
  have := p.isLt; omega

/-- Window 0 of region 0 at point t starts at tile t, column block 0. -/
theorem idx0_0 : ∀ t : Fin cfg0.N, win0_0.index t 0 = t.val ∧ win0_0.index t 1 = 0 :=
  (by decide +kernel : ∀ t : Fin grid0.N, win0_0.index t 0 = t.val ∧ win0_0.index t 1 = 0)

/-- Window 1 of region 0 at point t starts at tile t, column block 0. -/
theorem idx0_1 : ∀ t : Fin cfg0.N, win0_1.index t 0 = t.val ∧ win0_1.index t 1 = 0 :=
  (by decide +kernel : ∀ t : Fin grid0.N, win0_1.index t 0 = t.val ∧ win0_1.index t 1 = 0)

/-- Window 2 of region 0 at point t starts at tile t, column block 0. -/
theorem idx0_2 : ∀ t : Fin cfg0.N, win0_2.index t 0 = t.val ∧ win0_2.index t 1 = 0 :=
  (by decide +kernel : ∀ t : Fin grid0.N, win0_2.index t 0 = t.val ∧ win0_2.index t 1 = 0)

/-- Window 0 of region 1 at point t starts at tile t, column block 0. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Window 1 of region 1 at point t starts at tile t, column block 0. -/
theorem idx1_1 : ∀ t : Fin cfg1.N, win1_1.index t 0 = t.val ∧ win1_1.index t 1 = 0 :=
  (by decide +kernel : ∀ t : Fin grid1.N, win1_1.index t 0 = t.val ∧ win1_1.index t 1 = 0)

/-- Window 2 of region 1 at point t starts at tile t, column block 0. -/
theorem idx1_2 : ∀ t : Fin cfg1.N, win1_2.index t 0 = t.val ∧ win1_2.index t 1 = 0 :=
  (by decide +kernel : ∀ t : Fin grid1.N, win1_2.index t 0 = t.val ∧ win1_2.index t 1 = 0)

/-- Region 0's input window 0 at point t holds rows 5000 t … 5000 t + 4999 of argument 0. -/
theorem iblk0_0_apply (c : Dev nD) (t : Fin cfg0.N) (p : Fin 5000) (q : Fin 16) :
    (iblk0 V c 0 t : Vec F S5000x16 .f32) (ix2 p q)
      = (V c main_arg0 : S2000000x16.Idx → Elt F .f32) (ix2 (⟨t.val * 5000 + p.val, row_lt0 t p⟩ : Fin 2000000) q) := by
  have hi := idx0_0 t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [hi.1]; omega
  | ⟨1, _⟩ => show win0_0.index t 1 * 16 + 1 * q.val = q.val; rw [hi.2]; omega

/-- Region 0's input window 1 at point t holds rows 5000 t … 5000 t + 4999 of argument 1. -/
theorem iblk0_1_apply (c : Dev nD) (t : Fin cfg0.N) (p : Fin 5000) (q : Fin 16) :
    (iblk0 V c 1 t : Vec F S5000x16 .f32) (ix2 p q)
      = (V c main_arg1 : S2000000x16.Idx → Elt F .f32) (ix2 (⟨t.val * 5000 + p.val, row_lt0 t p⟩ : Fin 2000000) q) := by
  have hi := idx0_1 t
  unfold iblk0
  rw [View.read_apply]
  show V c main_arg1 _ = V c main_arg1 _
  congr 1
  funext a
  apply Fin.ext
  match a with
  | ⟨0, _⟩ => show win0_1.index t 0 * 5000 + 1 * p.val = t.val * 5000 + p.val; rw [hi.1]; omega
  | ⟨1, _⟩ => show win0_1.index t 1 * 16 + 1 * q.val = q.val; rw [hi.2]; omega

/-- Region 0's input window 2 at point t holds rows 5000 t … 5000 t + 4999 of argument 2. -/
theorem iblk0_2_apply (c : Dev nD) (t : Fin cfg0.N) (p : Fin 5000) (q : Fin 16) :
    (iblk0 V c 2 t : Vec F S5000x16 .f32) (ix2 p q)
      = (V c main_arg2 : S2000000x16.Idx → Elt F .f32) (ix2 (⟨t.val * 5000 + p.val, row_lt0 t p⟩ : Fin 2000000) q) := by
  have hi := idx0_2 t
  unfold iblk0
  rw [View.read_apply]
  show V c main_arg2 _ = V c main_arg2 _
  congr 1
  funext a
  apply Fin.ext
  match a with
  | ⟨0, _⟩ => show win0_2.index t 0 * 5000 + 1 * p.val = t.val * 5000 + p.val; rw [hi.1]; omega
  | ⟨1, _⟩ => show win0_2.index t 1 * 16 + 1 * q.val = q.val; rw [hi.2]; omega

/-- Region 1's input window 0 at point t holds rows 5000 t … 5000 t + 4999 of argument 0. -/
theorem iblk1_0_apply (c : Dev nD) (t : Fin cfg1.N) (p : Fin 5000) (q : Fin 16) :
    (iblk1 V c 0 t : Vec F S5000x16 .f32) (ix2 p q)
      = (V c main_arg0 : S2000000x16.Idx → Elt F .f32) (ix2 (⟨t.val * 5000 + p.val, row_lt1 t p⟩ : Fin 2000000) q) := by
  have hi := idx1_0 t
  unfold iblk1
  rw [View.read_apply]
  show V c main_arg0 _ = V c main_arg0 _
  congr 1
  funext a
  apply Fin.ext
  match a with
  | ⟨0, _⟩ => show win1_0.index t 0 * 5000 + 1 * p.val = t.val * 5000 + p.val; rw [hi.1]; omega
  | ⟨1, _⟩ => show win1_0.index t 1 * 16 + 1 * q.val = q.val; rw [hi.2]; omega

/-- Region 1's input window 1 at point t holds rows 5000 t … 5000 t + 4999 of argument 1. -/
theorem iblk1_1_apply (c : Dev nD) (t : Fin cfg1.N) (p : Fin 5000) (q : Fin 16) :
    (iblk1 V c 1 t : Vec F S5000x16 .f32) (ix2 p q)
      = (V c main_arg1 : S2000000x16.Idx → Elt F .f32) (ix2 (⟨t.val * 5000 + p.val, row_lt1 t p⟩ : Fin 2000000) q) := by
  have hi := idx1_1 t
  unfold iblk1
  rw [View.read_apply]
  show V c main_arg1 _ = V c main_arg1 _
  congr 1
  funext a
  apply Fin.ext
  match a with
  | ⟨0, _⟩ => show win1_1.index t 0 * 5000 + 1 * p.val = t.val * 5000 + p.val; rw [hi.1]; omega
  | ⟨1, _⟩ => show win1_1.index t 1 * 16 + 1 * q.val = q.val; rw [hi.2]; omega

/-- Region 1's input window 2 at point t holds rows 5000 t … 5000 t + 4999 of argument 2. -/
theorem iblk1_2_apply (c : Dev nD) (t : Fin cfg1.N) (p : Fin 5000) (q : Fin 16) :
    (iblk1 V c 2 t : Vec F S5000x16 .f32) (ix2 p q)
      = (V c main_arg2 : S2000000x16.Idx → Elt F .f32) (ix2 (⟨t.val * 5000 + p.val, row_lt1 t p⟩ : Fin 2000000) q) := by
  have hi := idx1_2 t
  unfold iblk1
  rw [View.read_apply]
  show V c main_arg2 _ = V c main_arg2 _
  congr 1
  funext a
  apply Fin.ext
  match a with
  | ⟨0, _⟩ => show win1_2.index t 0 * 5000 + 1 * p.val = t.val * 5000 + p.val; rw [hi.1]; omega
  | ⟨1, _⟩ => show win1_2.index t 1 * 16 + 1 * q.val = q.val; rw [hi.2]; omega

/-- Region 1's fourth window at every point starts at the row's first entry. -/
theorem idx1_3 : ∀ t : Fin cfg1.N, win1_3.index t 0 = 0 ∧ win1_3.index t 1 = 0 :=
  (by decide +kernel : ∀ t : Fin grid1.N, win1_3.index t 0 = 0 ∧ win1_3.index t 1 = 0)

/-- Region 1's fourth window holds the whole row of weights at every point. -/
theorem iblk1_3_apply (c : Dev nD) (t : Fin cfg1.N) (y : S1x128.Idx) :
    (iblk1 V c 3 t : Vec F S1x128 .f32) y = (V c main_v25 : S1x128.Idx → Elt F .f32) y := by
  have hi := idx1_3 t
  unfold iblk1
  rw [View.read_apply]
  show V c main_v25 _ = V c main_v25 _
  congr 1
  funext a
  apply Fin.ext
  match a with
  | ⟨0, _⟩ => show win1_3.index t 0 * 1 + 1 * (y 0).val = (y 0).val; rw [hi.1]; omega
  | ⟨1, _⟩ => show win1_3.index t 1 * 128 + 1 * (y 1).val = (y 1).val; rw [hi.2]; omega

end Cert.KernelIdeal.Blocks

end
-- ==== Proof.LibSegmentSum.lean ====
/-
  The accumulating scatter of a flat array of updates into the segments a flat array of integer labels names
  (a segment sum: result element b is the operand's element plus the sum of the updates whose label is b),
  read at an index of the result.
-/
import Idealize.ShloMosaic.Lib.ValueIdx

open scoped BigOperators

namespace Cert.Lib

open Idealize.ShloMosaic Idealize.ShloMosaic.ValueIdx

/-- The scatter dimension numbers of a segment sum: an operand `[N]`, scatter indices `[K, 1]` (one label per
    update, the index vector on the last axis), updates `[K]`; no window axis, the operand's one axis inserted and
    named by the one index component. Their conditions `wf` are decided on a program's literal shapes. -/
abbrev segDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- The scatter-indices index `[j, 0]` of update index `j`. -/
abbrev segIdx {K : Nat} (j : (⟨1, ![K]⟩ : Shape).Idx) : (⟨2, ![K, 1]⟩ : Shape).Idx :=
  fun a => match a with | ⟨0, _⟩ => ⟨(j 0).val, (j 0).isLt⟩ | ⟨1, _⟩ => ⟨0, Nat.one_pos⟩

section
variable {N K w : Nat} (wf : ScatterDims.WF ⟨1, ![N]⟩ ⟨2, ![K, 1]⟩ ⟨1, ![K]⟩ [] [0] [0] 1)
  (idx : IVec ⟨2, ![K, 1]⟩ w) (j : (⟨1, ![K]⟩ : Shape).Idx)

/-- Update `j`'s window starts at its label, read signed. -/
theorem seg_start (a : Fin 1) : (segDims N K wf).start j idx a = (idx (segIdx j)).toInt := by
  obtain rfl : a = 0 := Subsingleton.elim _ _
  unfold ScatterDims.start
  rw [dif_pos (show (0 : Fin 1) ∈ (segDims N K wf).scatterDimsToOperandDims from List.mem_singleton.mpr rfl)]
  have hsi : (segDims N K wf).siIdx j ⟨List.idxOf (0 : Fin 1) (segDims N K wf).scatterDimsToOperandDims,
      List.idxOf_lt_length_iff.2 (List.mem_singleton.mpr rfl)⟩ = segIdx j := by
    funext b; refine Fin.ext ?_
    match b with
    | ⟨0, _⟩ => rfl
    | ⟨1, _⟩ => rfl
  rw [hsi]

/-- There is no window: the operand's one axis is inserted. -/
theorem seg_window (a : Fin 1) : (segDims N K wf).window j a = 0 := by
  unfold ScatterDims.window
  rw [dif_neg]
  intro h
  obtain rfl : a = 0 := Subsingleton.elim _ _
  have h2 := (List.mem_filter.mp h).2
  simp at h2

/-- Update `j` lands on operand element `i` exactly when its label, read signed, is `i`'s coordinate. -/
theorem seg_resultIdx?_eq_some_iff (i : (⟨1, ![N]⟩ : Shape).Idx) :
    (segDims N K wf).resultIdx? j idx = some i ↔ (idx (segIdx j)).toInt = ((i 0).val : Int) := by
  have hi : (i 0).val < N := (i 0).isLt
  unfold ScatterDims.resultIdx?
  by_cases hc : ∀ a, 0 ≤ (segDims N K wf).start j idx a + (segDims N K wf).window j a ∧
      (segDims N K wf).start j idx a + (segDims N K wf).window j a < (⟨1, ![N]⟩ : Shape).size a
  · rw [dif_pos hc]
    have h0 := hc 0
    rw [seg_start, seg_window] at h0
    constructor
    · intro h
      have h1 := congrArg Fin.val (congrFun (Option.some.inj h) 0)
      have h2 : ((segDims N K wf).start j idx 0 + (segDims N K wf).window j 0).toNat = (i 0).val := h1
      rw [seg_start, seg_window] at h2
      omega
    · intro h
      congr 1
      funext a
      obtain rfl : a = 0 := Subsingleton.elim _ _
      refine Fin.ext ?_
      show ((segDims N K wf).start j idx 0 + (segDims N K wf).window j 0).toNat = (i 0).val
      rw [seg_start, seg_window]
      omega
  · rw [dif_neg hc]
    constructor
    · intro h; cases h
    · intro h
      exfalso
      apply hc
      intro a
      obtain rfl : a = 0 := Subsingleton.elim _ _
      rw [seg_start, seg_window]
      show 0 ≤ (idx (segIdx j)).toInt + ((0 : Nat) : Int) ∧ (idx (segIdx j)).toInt + ((0 : Nat) : Int) < ((N : Nat) : Int)
      omega

end

/-- THE SEGMENT SUM READ AT `b`: the operand at `b` plus the sum of the updates whose label, read signed, is `b`
    (a label outside `[0, N)` names no element: its update is dropped). -/
theorem hostScatterAdd_seg_apply {N K w : Nat} (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (b : (⟨1, ![N]⟩ : Shape).Idx) :
    Ideal.hostScatterAdd (segDims N K wf) x idx upd b =
      x b + ∑ j : (⟨1, ![K]⟩ : Shape).Idx, if (idx (segIdx j)).toInt = ((b 0).val : Int) then upd j else 0 := by
  unfold Ideal.hostScatterAdd
  congr 1
  rw [Finset.sum_filter]
  refine Finset.sum_congr rfl fun j _ => ?_
  by_cases h : (idx (segIdx j)).toInt = ((b 0).val : Int)
  · rw [if_pos h, if_pos ((seg_resultIdx?_eq_some_iff wf idx j b).2 h)]
  · rw [if_neg h, if_neg (fun h' => h ((seg_resultIdx?_eq_some_iff wf idx j b).1 h'))]

end Cert.Lib
-- ==== Proof.RefCounts.lean ====
/-
  The reference's per-bin counts: the segment sum of the validity bits over the bins, read at a bin.
-/
import proofs.«155373_j51591147159894_2_alg».proof.Proof.RefRead
import proofs.«155373_j51591147159894_2_alg».proof.Proof.LibSegmentSum

open scoped BigOperators

noncomputable section

namespace Cert.RefOps

open Cert.ReferenceIdeal Cert.ReferenceIdeal.Gen Cert.ReferenceIdeal.ReadP Idealize.ShloMosaic
  Idealize.ShloMosaic.ValueIdx Cert.Lib

/-- The signed maximum of two words, read signed, is the maximum of the two readings. -/
theorem maxsi_toInt (x y : BitVec 32) : (IntOp.maxsi x y).toInt = max x.toInt y.toInt := by
  unfold IntOp.maxsi BitVec.slt
  by_cases h : y.toInt < x.toInt
  · rw [if_pos (decide_eq_true h)]; omega
  · rw [if_neg (fun hd => h (of_decide_eq_true hd))]; omega

/-- The signed minimum of two words, read signed, is the minimum of the two readings. -/
theorem minsi_toInt (x y : BitVec 32) : (IntOp.minsi x y).toInt = min x.toInt y.toInt := by
  unfold IntOp.minsi BitVec.slt
  by_cases h : x.toInt < y.toInt
  · rw [if_pos (decide_eq_true h)]; omega
  · rw [if_neg (fun hd => h (of_decide_eq_true hd))]; omega

/-- A signed minimum with 9 of a signed maximum with 0 lies in [0, 9], whatever the word. -/
theorem clip_range (w : BitVec 32) :
    0 ≤ (IntOp.minsi 9#32 (IntOp.maxsi 0#32 w)).toInt ∧ (IntOp.minsi 9#32 (IntOp.maxsi 0#32 w)).toInt ≤ 9 := by
  have h9 : (9#32 : BitVec 32).toInt = 9 := by decide
  have h0 : (0#32 : BitVec 32).toInt = 0 := by decide
  rw [minsi_toInt, maxsi_toInt, h9, h0]
  omega

/-- Every bin word, read signed, lies in [0, 9]. -/
theorem bin_range (x0 x1 : (⟨S2000000x16, .f32⟩ : BufTy).Contents (Elt Ideal)) (i : S2000000x16.Idx) :
    0 ≤ (val_main_v17 (F := Ideal) x0 x1 i).toInt ∧ (val_main_v17 (F := Ideal) x0 x1 i).toInt ≤ 9 := by
  rw [val_main_v17_apply, val_main_call0_v4_apply, val_main_call0_v3_apply, val_main_c_5_apply,
    val_main_call0_v2_apply, val_main_call0_v1_apply, val_main_call0_v0_apply, val_main_c_apply]
  exact clip_range _

/-- Position `j` of the flattened array is element `(j / 16, j % 16)` of the array: the row-major bijection the
    reshape reads through. -/
def flatEquiv : S32000000.Idx ≃ S2000000x16.Idx where
  toFun j := idx_main_v20 j
  invFun i := ix1 ⟨(i 0).val * 16 + (i 1).val, by have h0 := idx2_lt0 i; have h1 := idx2_lt1 i; omega⟩
  left_inv j := by
    funext a
    obtain rfl : a = 0 := Subsingleton.elim _ _
    refine Fin.ext ?_
    show (j 0).val / 16 * 16 + (j 0).val % 16 = (j 0).val
    omega
  right_inv i := by
    have h1 := idx2_lt1 i
    funext a
    match a with
    | ⟨0, _⟩ => refine Fin.ext ?_; show ((i 0).val * 16 + (i 1).val) / 16 = (i 0).val; omega
    | ⟨1, _⟩ => refine Fin.ext ?_; show ((i 0).val * 16 + (i 1).val) % 16 = (i 1).val; omega

/-- The label the scatter reads for update `j` is the bin word at `j`'s element of the array. -/
theorem labels_flat (x0 x1 : (⟨S2000000x16, .f32⟩ : BufTy).Contents (Elt Ideal)) (j : S32000000.Idx) :
    val_main_v22 (F := Ideal) x0 x1 (segIdx j) = val_main_v17 (F := Ideal) x0 x1 (flatEquiv j) := by
  rw [val_main_v22_apply, val_main_v20_apply]
  rfl

/-- Update `j` is the validity bit, as a float, at `j`'s element of the array. -/
theorem bits_flat (x2 : (⟨S2000000x16, .f32⟩ : BufTy).Contents (Elt Ideal)) (j : S32000000.Idx) :
    val_main_v19 (F := Ideal) x2 j = val_main_v10 (F := Ideal) x2 (flatEquiv j) := by
  rw [val_main_v19_apply]
  rfl

/-- The accumulating scatter of the program, read at a bin, for any operand, labels and updates: the operand there
    plus the sum of the updates whose label, read signed, is the bin. -/
theorem scatter_read (x : (⟨S10, .f32⟩ : BufTy).Contents (Elt Ideal))
    (idx : (⟨S32000000x1, .i32⟩ : BufTy).Contents (Elt Ideal))
    (upd : (⟨S32000000, .f32⟩ : BufTy).Contents (Elt Ideal)) (b : S10.Idx) :
    Host.scatterAdd (F := Ideal) (φ := .f32) scatter_S10_S32000000x1_S32000000_n_0_0_1 x idx upd b =
      x b + ∑ j : S32000000.Idx, if (idx (segIdx j)).toInt = ((b 0).val : Int) then upd j else 0 :=
  hostScatterAdd_seg_apply Facts₀.scatter_S10_S32000000x1_S32000000_n_0_0_1_wf x idx upd b

/-- The count of bin `b`: the sum, over the elements whose bin word is `b`, of the validity bit as a float. -/
theorem counts_apply (x0 x1 x2 : (⟨S2000000x16, .f32⟩ : BufTy).Contents (Elt Ideal)) (b : S10.Idx) :
    val_main_v23 (F := Ideal) x0 x1 x2 b =
      ∑ j : S2000000x16.Idx, (if (val_main_v17 (F := Ideal) x0 x1 j).toInt = ((b 0).val : Int)
        then val_main_v10 (F := Ideal) x2 j else 0) := by
  unfold val_main_v23
  refine (scatter_read _ _ _ b).trans ?_
  have hz : val_main_v21 (F := Ideal) b = 0 := by
    rw [val_main_v21_apply, val_main_cst_6_apply]
    exact Ideal.ofBits_zero_f32
  rewrite [hz, zero_add,
    ← Equiv.sum_comp flatEquiv (fun i : S2000000x16.Idx =>
      if (val_main_v17 (F := Ideal) x0 x1 i).toInt = ((b 0).val : Int) then val_main_v10 (F := Ideal) x2 i else 0)]
  refine Finset.sum_congr rfl fun j _ => ?_
  rewrite [labels_flat, bits_flat]
  rfl

end Cert.RefOps

end
-- ==== Proof.LibTileSum.lean ====
/-
  Regrouping a sum over the index set of an [N, C] array by tiles of B consecutive rows, N = A * B:
  the row t * B + r is row r of tile t.
-/
import Idealize.ShloMosaic.Lib.ValueIdx

open scoped BigOperators

namespace Cert.Lib

open Idealize.ShloMosaic Idealize.ShloMosaic.ValueIdx

/-- Row `r` of tile `t`, among `A` tiles of `B` rows each, is a row of the whole: `t * B + r < A * B`. -/
theorem tile_row_lt {A B : Nat} (t : Fin A) (r : Fin B) : t.val * B + r.val < A * B := by
  have ht := t.isLt
  have hr := r.isLt
  calc t.val * B + r.val < t.val * B + B := by omega
    _ = (t.val + 1) * B := by rw [Nat.add_mul, Nat.one_mul]
    _ ≤ A * B := Nat.mul_le_mul_right _ (by omega)

/-- The same bound with the number of rows given as `N = A * B`. -/
theorem tile_row_lt_of_eq {N A B : Nat} (h : N = A * B) (t : Fin A) (r : Fin B) : t.val * B + r.val < N :=
  h ▸ tile_row_lt t r

/-- A sum over `Fin N`, `N = A * B`, is the sum over the `A` tiles of the sum over each tile's `B` members:
    member `r` of tile `t` is `t * B + r`. -/
theorem sum_fin_tiles {M : Type*} [AddCommMonoid M] {N A B : Nat} (h : N = A * B) (g : Fin N → M) :
    ∑ a, g a = ∑ t : Fin A, ∑ r : Fin B, g ⟨t.val * B + r.val, tile_row_lt_of_eq h t r⟩ := by
  subst h
  rw [← Equiv.sum_comp finProdFinEquiv g, Fintype.sum_prod_type]
  refine Finset.sum_congr rfl fun t _ => Finset.sum_congr rfl fun r _ => ?_
  congr 1
  refine Fin.ext ?_
  show r.val + B * t.val = t.val * B + r.val
  rw [Nat.mul_comm, Nat.add_comm]

/-- A sum over the index set of an `[N, C]` array, `N = A * B`, tile by tile: over the `A` tiles, the `B` rows of
    the tile, and the `C` columns. -/
theorem sum_idx2_tiles {M : Type*} [AddCommMonoid M] {N A B C : Nat} (h : N = A * B)
    (f : (⟨2, ![N, C]⟩ : Shape).Idx → M) :
    ∑ j, f j = ∑ t : Fin A, ∑ r : Fin B, ∑ c : Fin C, f (ix2 ⟨t.val * B + r.val, tile_row_lt_of_eq h t r⟩ c) := by
  rw [sum_idx2, sum_fin_tiles h]

/-- The same over the shape written `[A * B, C]`. -/
theorem sum_tiles {M : Type*} [AddCommMonoid M] {A B C : Nat} (f : (⟨2, ![A * B, C]⟩ : Shape).Idx → M) :
    ∑ j, f j = ∑ t : Fin A, ∑ r : Fin B, ∑ c : Fin C, f (ix2 ⟨t.val * B + r.val, tile_row_lt t r⟩ c) :=
  sum_idx2_tiles rfl f

/-- 2000000 rows are 400 tiles of 5000. -/
theorem rows_2000000 : (2000000 : Nat) = 400 * 5000 := by decide

/-- A sum over the index set of a `[2000000, 16]` array as 400 tiles of 5000 rows of 16 columns. -/
theorem sum_tiles_2000000x16 {M : Type*} [AddCommMonoid M] (f : (⟨2, ![2000000, 16]⟩ : Shape).Idx → M) :
    ∑ j, f j = ∑ t : Fin 400, ∑ r : Fin 5000, ∑ c : Fin 16,
      f (ix2 ⟨t.val * 5000 + r.val, tile_row_lt_of_eq rows_2000000 t r⟩ c) :=
  sum_idx2_tiles rows_2000000 f

end Cert.Lib
-- ==== Proof.BridgeHist.lean ====
/-
  The histogram pass computes the reference's counts.

  Lane b (b below 10) of the histogram row is the sum over the 400 tiles of each tile's number of valid entries in
  bin b; the tiles partition the [2000000, 16] index set, the kernel's bin and validity at a tile entry are the
  reference's at the corresponding array entry, and sums of extended reals may be regrouped freely. So lane b is the
  reference's segment sum for bin b, and lane 10 is the reference's total count of valid entries.
-/
import proofs.«155373_j51591147159894_2_alg».proof.Proof.KernelGlue
import proofs.«155373_j51591147159894_2_alg».proof.Proof.HistSum
import proofs.«155373_j51591147159894_2_alg».proof.Proof.TileEntries
import proofs.«155373_j51591147159894_2_alg».proof.Proof.TileBlocks
import proofs.«155373_j51591147159894_2_alg».proof.Proof.RefCounts
import proofs.«155373_j51591147159894_2_alg».proof.Proof.LibTileSum

set_option maxRecDepth 16384

noncomputable section

open Idealize.ShloMosaic Idealize.ShloMosaic.TcCoe Idealize.SL.Sem Idealize.ShloMosaic.ValueIdx

namespace Cert.Bridge

open Cert.KernelIdeal Cert.KernelIdeal.Gen
open Cert.ReferenceIdeal.ReadP (val_main_v10 val_main_v17 val_main_v23 val_main_v11)

/-- A selection on "the word is n" is an if on the word's signed value. -/
theorem sel_word (w : BitVec 32) (n : Nat) (hn : n < 10) (a : EReal) :
    Scalar.select (IntOp.cmpi .eq w (BitVec.ofNat 32 n)) a (Scalar.ofBits .f32 0x00000000#32 : Ideal .f32)
      = if w.toInt = (n : Int) then a else 0 := by
  have hz : (Scalar.ofBits .f32 0x00000000#32 : Ideal .f32) = (0 : EReal) := Ideal.ofBits_zero_f32
  rw [hz]
  show (if BitVec.ofBool (w == BitVec.ofNat 32 n) = 1#1 then a else 0) = _
  have hn' : (BitVec.ofNat 32 n).toInt = (n : Int) := by interval_cases n <;> decide
  by_cases h : w = BitVec.ofNat 32 n
  · subst h
    rw [beq_self_eq_true, if_pos (by decide), if_pos hn']
  · have hb : (w == BitVec.ofNat 32 n) = false := by rw [beq_eq_false_iff_ne]; exact h
    rw [hb, if_neg (by decide), if_neg]
    intro e
    exact h (BitVec.eq_of_toInt_eq (e.trans hn'.symm))

variable (m : (ℓ : Loc nD τ sig) → Buf (Elt Ideal) ℓ) (ρ : Dev nD → PrngReg) (c : Dev nD)

/-- The three argument arrays. -/
abbrev A0 : S2000000x16.Idx → EReal := m ((c.tc : Thread nD τ).loc main_arg0)
abbrev A1 : S2000000x16.Idx → EReal := m ((c.tc : Thread nD τ).loc main_arg1)
abbrev A2 : S2000000x16.Idx → EReal := m ((c.tc : Thread nD τ).loc main_arg2)

/-- Row p of tile t. -/
abbrev rowOf (t : Fin 400) (p : Fin 5000) : Fin 2000000 :=
  ⟨t.val * 5000 + p.val, Cert.Lib.tile_row_lt_of_eq Cert.Lib.rows_2000000 t p⟩

theorem tile0 (t : Fin 400) (p : Fin 5000) (q : Fin 16) :
    Hist.tile0 (V0 m ρ) c (Hist.pt t.val t.isLt) (ix2 p q) = A0 m c (ix2 (rowOf t p) q) := by
  unfold Hist.tile0
  rw [Blocks.iblk0_0_apply, HostSide.V0_main_arg0]
theorem tile1 (t : Fin 400) (p : Fin 5000) (q : Fin 16) :
    Hist.tile1 (V0 m ρ) c (Hist.pt t.val t.isLt) (ix2 p q) = A1 m c (ix2 (rowOf t p) q) := by
  unfold Hist.tile1
  rw [Blocks.iblk0_1_apply, HostSide.V0_main_arg1]
theorem tile2 (t : Fin 400) (p : Fin 5000) (q : Fin 16) :
    Hist.tile2 (V0 m ρ) c (Hist.pt t.val t.isLt) (ix2 p q) = A2 m c (ix2 (rowOf t p) q) := by
  unfold Hist.tile2
  rw [Blocks.iblk0_2_apply, HostSide.V0_main_arg2]

/-- Lane b of the histogram row is the reference's count of bin b. -/
theorem hist_lane (b : Fin 10) :
    HostSide.Hst m ρ c (HostSide.lane b) = val_main_v23 (F := Ideal) (A0 m c) (A1 m c) (A2 m c) (ix1 b) := by
  have hl : b.val < 128 := by have := b.isLt; omega
  have e1 : HostSide.Hst m ρ c (HostSide.lane b)
      = (0 : EReal) + ∑ t : Fin 400, Hist.pointGain (V0 m ρ) c ⟨b.val, hl⟩ (Hist.pt t.val t.isLt) :=
    (congrFun (Hist.final_eq (V0 m ρ) c) _).trans (Hist.finalRow_at (V0 m ρ) c ⟨b.val, hl⟩)
  rw [e1, zero_add, Cert.RefOps.counts_apply, Cert.Lib.sum_tiles_2000000x16]
  refine Finset.sum_congr rfl fun t _ => ?_
  unfold Hist.pointGain
  rw [if_pos (show b.val < 11 by have := b.isLt; omega)]
  unfold Hist.tileGain
  rw [if_neg (show ¬ b.val = 10 by have := b.isLt; omega), Hist.tileSum_eq]
  refine Finset.sum_congr rfl fun p _ => Finset.sum_congr rfl fun q _ => ?_
  show Scalar.select (IntOp.cmpi .eq (k0_pay4 (F := Ideal) _ _ (ix2 p q)) (BitVec.ofNat 32 b.val))
      (k0_pay3 (F := Ideal) _ (ix2 p q)) (Scalar.ofBits .f32 0x00000000#32 : Ideal .f32) = _
  rw [Cert.Tile.bin0 _ _ (A0 m c) (A1 m c) _ (ix2 (rowOf t p) q) (tile0 m ρ c t p q) (tile1 m ρ c t p q),
    Cert.Tile.valid_f _ (A2 m c) _ (ix2 (rowOf t p) q) (tile2 m ρ c t p q), sel_word _ _ b.isLt]

/-- Lane 10 of the histogram row is zero plus the sum of the validity numbers over the whole array. -/
theorem hist_total :
    HostSide.Hst m ρ c (ix2 (0 : Fin 1) (10 : Fin 128)) = 0 + ∑ j : S2000000x16.Idx, val_main_v10 (F := Ideal) (A2 m c) j := by
  have e1 : HostSide.Hst m ρ c (ix2 (0 : Fin 1) (10 : Fin 128))
      = (0 : EReal) + ∑ t : Fin 400, Hist.pointGain (V0 m ρ) c ⟨10, by decide⟩ (Hist.pt t.val t.isLt) :=
    (congrFun (Hist.final_eq (V0 m ρ) c) _).trans (Hist.finalRow_at (V0 m ρ) c ⟨10, by decide⟩)
  rw [e1, Cert.Lib.sum_tiles_2000000x16]
  refine congrArg ((0 : EReal) + ·) ?_
  refine Finset.sum_congr rfl fun t _ => ?_
  unfold Hist.pointGain
  rw [if_pos (show (10 : ℕ) < 11 by decide)]
  unfold Hist.tileGain
  rw [if_pos rfl, Hist.tileSum_eq]
  refine Finset.sum_congr rfl fun p _ => Finset.sum_congr rfl fun q _ => ?_
  exact Cert.Tile.valid_f _ (A2 m c) _ (ix2 (rowOf t p) q) (tile2 m ρ c t p q)

end Cert.Bridge

end
-- ==== Proof.BceStep.lean ====
/-
  The loss pass, one grid point at a time.

  At a grid point the body reads one tile of 5000 rows by 16 lanes from each of the three arrays, and eleven single
  entries of the [1, 128] row of per-bin weights (lanes 0 to 9) and of the reciprocal count of nonempty bins (lane 10).
  It leaves, in the output's [1, 128] staging row, the row it found there plus, on lane 0, the tile's sum of
  weight times loss; every other lane gains that sum times zero. At the first point the row is first cleared.
-/
import proofs.«155373_j51591147159894_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Bce

open Cert.KernelIdeal Cert.KernelIdeal.Gen

variable {F : FTy → Type} [FloatOps F]

theorem hz : (![0, 0] : Fin 2 → Nat) = fun _ => 0 := funext fun a => by fin_cases a <;> rfl

/-- The row after a point: the row found plus the tile's weighted loss on lane 0. The body's operations, in the
    order it applies them; x3 is the row of weights. -/
def step (x0 x1 x2 : Vec F S5000x16 .f32) (x3 xo : Vec F S1x128 .f32) : FVec F S1x128 .f32 :=
  k1_pay1 x0 x1 (k1_pay3 x2) (k1_pay4 x0 x1) (k1_pay5 (View.ld x3 (Rect.unit ![0, 10] ![1, 1] inb_S1x128_S1x1_0_10)))
    (k1_pay7 (k1_pay4 x0 x1)
      (k1_pay6 x0 x1 (View.ld x3 (Rect.unit ![0, 0] ![1, 1] inb_S1x128_S1x1_0_0))
        (View.ld x3 (Rect.unit ![0, 1] ![1, 1] inb_S1x128_S1x1_0_1)))
      (View.ld x3 (Rect.unit ![0, 2] ![1, 1] inb_S1x128_S1x1_0_2))
      (View.ld x3 (Rect.unit ![0, 3] ![1, 1] inb_S1x128_S1x1_0_3))
      (View.ld x3 (Rect.unit ![0, 4] ![1, 1] inb_S1x128_S1x1_0_4))
      (View.ld x3 (Rect.unit ![0, 5] ![1, 1] inb_S1x128_S1x1_0_5))
      (View.ld x3 (Rect.unit ![0, 6] ![1, 1] inb_S1x128_S1x1_0_6))
      (View.ld x3 (Rect.unit ![0, 7] ![1, 1] inb_S1x128_S1x1_0_7))
      (View.ld x3 (Rect.unit ![0, 8] ![1, 1] inb_S1x128_S1x1_0_8)))
    (View.ld x3 (Rect.unit ![0, 9] ![1, 1] inb_S1x128_S1x1_0_9)) xo

/-- The cleared row. -/
abbrev cleared : FVec F S1x128 .f32 := k1_pay2

/-- Away from the first point the body leaves the step of the row it found. -/
theorem out_B (c : Dev nD) (i : grid1.Coords) (a1 : Memref sig .tc .vmem S5000x16 .f32) (h1 : a1.IsWhole)
    (a2 : Memref sig .tc .vmem S5000x16 .f32) (h2 : a2.IsWhole) (a3 : Memref sig .tc .vmem S5000x16 .f32) (h3 : a3.IsWhole)
    (a4 : Memref sig .tc .vmem S1x128 .f32) (h4 : a4.IsWhole) (a5 : Memref sig .tc .vmem S1x128 .f32) (h5 : a5.IsWhole)
    (hc : ¬cond1_0 i) (x0 x1 x2 : Vec F S5000x16 .f32) (x3 xo : Vec F S1x128 .f32) :
    out1_B_4 c i a1 h1 a2 h2 a3 h3 a4 h4 a5 h5 hc x0 x1 x2 x3 xo = step x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz]
  simp only [View.readAt_eq_ld, h1.read_unread, h2.read_unread, h3.read_unread, h4.read_unread, h5.read_unread,
    View.ld_unit_zero (S := S5000x16) hz, View.ld_unit_zero (S := S1x128) hz]
  rfl

/-- At the first point the body clears the row, reads the cleared row back and leaves its step. -/
theorem out_A (c : Dev nD) (i : grid1.Coords) (a1 : Memref sig .tc .vmem S5000x16 .f32) (h1 : a1.IsWhole)
    (a2 : Memref sig .tc .vmem S5000x16 .f32) (h2 : a2.IsWhole) (a3 : Memref sig .tc .vmem S5000x16 .f32) (h3 : a3.IsWhole)
    (a4 : Memref sig .tc .vmem S1x128 .f32) (h4 : a4.IsWhole) (a5 : Memref sig .tc .vmem S1x128 .f32) (h5 : a5.IsWhole)
    (hc : cond1_0 i) (x0 x1 x2 : Vec F S5000x16 .f32) (x3 : Vec F S1x128 .f32) :
    out1_A_4 c i a1 h1 a2 h2 a3 h3 a4 h4 a5 h5 hc x0 x1 x2 x3 = step x0 x1 x2 x3 cleared := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S1x128) hz, View.readCov_unit_zero (S := S1x128) _ hz]
  simp only [View.readAt_eq_ld, h1.read_unread, h2.read_unread, h3.read_unread, h4.read_unread,
    View.ld_unit_zero (S := S5000x16) hz, View.ld_unit_zero (S := S1x128) hz]
  rfl

end Cert.KernelIdeal.Bce

end
-- ==== Proof.BceRun.lean ====
/-
  The loss pass over the whole grid.

  The output row is carried from point to point: cleared and stepped at the first point, stepped at each later one,
  and written back to its array once, after the last of the 400 points. So the array ends holding the row after point
  399 of the recursion "step the previous row with this point's three tiles and the row of weights".
-/
import proofs.«155373_j51591147159894_2_alg».proof.Proof.BceStep

set_option maxRecDepth 16384

noncomputable section

open Idealize.ShloMosaic Idealize.ShloMosaic.TcCoe Idealize.SL.Sem
open Idealize.ShloMosaic.Pipeline (Dat)

namespace Cert.KernelIdeal.Bce

open Cert.KernelIdeal Cert.KernelIdeal.Gen

variable {F : FTy → Type} [FloatOps F]
variable (V : (c : Dev nD) → (b : Ref sig .tc) → Buf (Elt F) ((c : Thread nD τ).loc b))

/-- The row after point n: the step of the row after point n - 1 (the cleared row before point 0) with the three
    tiles of point n and the row of weights. -/
def rowAfter (c : Dev nD) : (n : ℕ) → n < cfg1.N → Vec F S1x128 .f32
  | 0, h => step (iblk1 V c 0 ⟨0, h⟩) (iblk1 V c 1 ⟨0, h⟩) (iblk1 V c 2 ⟨0, h⟩) (iblk1 V c 3 ⟨0, h⟩) cleared
  | n + 1, h => step (iblk1 V c 0 ⟨n + 1, h⟩) (iblk1 V c 1 ⟨n + 1, h⟩) (iblk1 V c 2 ⟨n + 1, h⟩) (iblk1 V c 3 ⟨n + 1, h⟩)
      (rowAfter c n (Nat.lt_of_succ_lt h))

/-- What the staging row holds after point n is that row: by induction on the point. -/
theorem outsAt_eq (c : Dev nD) : ∀ (n : ℕ) (h : n < cfg1.N), outsAt1 V c n h = rowAfter V c n h
  | 0, h => (outsAt1_A V c ⟨0, h⟩ rfl).trans (out_A ..)
  | n + 1, h => by
    have hN : cfg1.N = 400 := N_1
    have hB : ¬(⟨n + 1, h⟩ : Fin cfg1.N).val % 400 = 0 := by dsimp only; omega
    rw [outsAt1_B V c ⟨n + 1, h⟩ hB, out_B]
    show step _ _ _ _ (outsAt1 V c n _) = step _ _ _ _ (rowAfter V c n _)
    rw [outsAt_eq c n]

/-- The last point of the grid. -/
abbrev lastPt : Fin cfg1.N := ⟨399, by rw [show cfg1.N = 400 from N_1]; decide⟩

/-- The row after the last point, as contents of the output array (its one block is the whole array). -/
abbrev finalRow (c : Dev nD) : Buf (Elt F) ((c : Thread nD τ).loc main_v26) := rowAfter V c 399 lastPt.isLt

/-- The one write-back, at the last point, writes that row. -/
theorem flushed_eq (c : Dev nD) (t : Fin cfg1.N) (hf : (cfg1.win 4).flush t = true) :
    (dat1 V c).flushed 4 t = ((cfg1.win 4).blk t).view.read (Elt F) (finalRow V c) := by
  have hN : cfg1.N = 400 := N_1
  have h3 : t.val = 399 := by have := (flush1_4 t).mp hf; have := t.isLt; omega
  obtain rfl : t = lastPt := Fin.ext h3
  show (cfg1.win 4).cut (grid1.coords lastPt) ((dat1 V c).after 4 lastPt) = _
  rw [after1_4, outsAt_eq]
  have hz' : (fun a => win1_4.index lastPt a * main_v26.ty.shape.size a) = fun _ => 0 :=
    funext fun a => by fin_cases a <;> decide +kernel
  exact (Memref.read_access_unit_zero (Elt F) main_v26 hz' (fun a => by rw [congrFun hz' a]; simp) (finalRow V c)).symm

/-- So the output array ends holding the row after the last point. -/
theorem final_eq (c : Dev nD) : (dat1 V c).arrAt 4 cfg1.N = finalRow V c :=
  (dat1 V c).arrAt_eq_of_cover 4 (finalRow V c) (flushed_eq V c) fun i =>
    ⟨lastPt, (flush1_4 lastPt).mpr rfl, by
      show i ∈ ((View.whole main_v26).slice (win1_4.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win1_4.index lastPt 0 * win1_4.size 0 ≤ (i 0 : Nat)
          ∧ (i 0 : Nat) < win1_4.index lastPt 0 * win1_4.size 0 + win1_4.xsize (grid1.coords lastPt) 0
        rw [show win1_4.index lastPt 0 * win1_4.size 0 = 0 from by decide +kernel,
          show win1_4.xsize (grid1.coords lastPt) 0 = 1 from by decide +kernel]
        omega
      | ⟨1, _⟩ =>
        show win1_4.index lastPt 1 * win1_4.size 1 ≤ (i 1 : Nat)
          ∧ (i 1 : Nat) < win1_4.index lastPt 1 * win1_4.size 1 + win1_4.xsize (grid1.coords lastPt) 1
        rw [show win1_4.index lastPt 1 * win1_4.size 1 = 0 from by decide +kernel,
          show win1_4.xsize (grid1.coords lastPt) 1 = 128 from by decide +kernel]
        omega⟩

end Cert.KernelIdeal.Bce

end
-- ==== Proof.BceLane.lean ====
/-
  The loss pass at lane 0.

  Lane 0 of the row after a point is lane 0 of the row found plus the tile's sum of weight times loss. An entry's
  weight is, where the entry is valid, the weight of its bin — picked by ten nested selections on the bin word out of
  lanes 0 to 9 of the weights row — and zero elsewhere, times lane 10 of that row; its loss is
  max(x, 0) - x t + log(1 + exp(0 - |x|)).
-/
import proofs.«155373_j51591147159894_2_alg».proof.Proof.BceStep
import proofs.«155373_j51591147159894_2_alg».proof.Proof.HistLane

set_option maxRecDepth 16384

noncomputable section

open Idealize.ShloMosaic Idealize.ShloMosaic.TcCoe Idealize.SL.Sem Idealize.ShloMosaic.ValueIdx

namespace Cert.KernelIdeal.Bce

open Cert.KernelIdeal Cert.KernelIdeal.Gen
open Cert.KernelIdeal.Hist (at1 tileSum tileSum_eq mark mark_eq zero_word)

/-- The only entry of a [1, 1] vector, as an extraction at [0, 0] names it. -/
abbrev only : S1x1.Idx := fun a => ⟨(![0, 0] : Fin 2 → Nat) a, inpos_S1x1_p0_0 a⟩

/-- An entry's loss. -/
def loss (x0 x1 : Vec Ideal S5000x16 .f32) : FVec Ideal S5000x16 .f32 :=
  addf (subf (maximumf x0 (broadcast S5000x16 (Scalar.ofBits .f32 0x00000000#32))) (mulf x0 x1))
    (log1p (exp (subf (broadcast S5000x16 (Scalar.ofBits .f32 0x00000000#32)) (absf x0))))

/-- Weight times loss over the tile, as the body forms it from the validity bits v10, the bin words v18, the scale
    v20, the weights already chosen for bins 0 to 8 (v75) and the weight of bin 9 (v76). -/
def weighted (x0 x1 : Vec Ideal S5000x16 .f32) (v10 : IVec S5000x16 1) (v18 : IVec S5000x16 32) (v20 : Ideal .f32)
    (v75 : FVec Ideal S5000x16 .f32) (v76 : Vec Ideal S1x1 .f32) : FVec Ideal S5000x16 .f32 :=
  mulf (mulf (select v10 (select (cmpi .eq v18 (broadcast S5000x16 9#32)) (broadcast S5000x16 (v76 only)) v75)
      (broadcast S5000x16 (Scalar.ofBits .f32 0x00000000#32))) (broadcast S5000x16 v20)) (loss x0 x1)

variable (x0 x1 : Vec Ideal S5000x16 .f32) (p : Fin 5000) (q : Fin 16)

theorem pay5_eq (v19 : Vec Ideal S1x1 .f32) : k1_pay5 v19 = v19 only := rfl

theorem pay6_at (v22 v28 : Vec Ideal S1x1 .f32) :
    k1_pay6 x0 x1 v22 v28 (ix2 p q)
      = Scalar.select (IntOp.cmpi .eq (k1_pay4 x0 x1 (ix2 p q)) 1#32) (v28 only)
          (Scalar.select (IntOp.cmpi .eq (k1_pay4 x0 x1 (ix2 p q)) 0#32) (v22 only)
            (Scalar.ofBits .f32 0x00000000#32 : Ideal .f32)) := rfl

theorem pay7_at (v18 : IVec S5000x16 32) (v33 : FVec Ideal S5000x16 .f32) (v34 v40 v46 v52 v58 v64 v70 : Vec Ideal S1x1 .f32) :
    k1_pay7 v18 v33 v34 v40 v46 v52 v58 v64 v70 (ix2 p q)
      = Scalar.select (IntOp.cmpi .eq (v18 (ix2 p q)) 8#32) (v70 only)
        (Scalar.select (IntOp.cmpi .eq (v18 (ix2 p q)) 7#32) (v64 only)
        (Scalar.select (IntOp.cmpi .eq (v18 (ix2 p q)) 6#32) (v58 only)
        (Scalar.select (IntOp.cmpi .eq (v18 (ix2 p q)) 5#32) (v52 only)
        (Scalar.select (IntOp.cmpi .eq (v18 (ix2 p q)) 4#32) (v46 only)
        (Scalar.select (IntOp.cmpi .eq (v18 (ix2 p q)) 3#32) (v40 only)
        (Scalar.select (IntOp.cmpi .eq (v18 (ix2 p q)) 2#32) (v34 only) (v33 (ix2 p q)))))))) := rfl

theorem weighted_at (v10 : IVec S5000x16 1) (v18 : IVec S5000x16 32) (v20 : Ideal .f32)
    (v75 : FVec Ideal S5000x16 .f32) (v76 : Vec Ideal S1x1 .f32) :
    weighted x0 x1 v10 v18 v20 v75 v76 (ix2 p q)
      = (Scalar.select (v10 (ix2 p q))
          (Scalar.select (IntOp.cmpi .eq (v18 (ix2 p q)) 9#32) (v76 only) (v75 (ix2 p q)))
          (Scalar.ofBits .f32 0x00000000#32 : Ideal .f32) * v20) * loss x0 x1 (ix2 p q) := rfl

theorem pay1_at (l : Fin 128) (v10 : IVec S5000x16 1) (v18 : IVec S5000x16 32) (v20 : Ideal .f32)
    (v75 : FVec Ideal S5000x16 .f32) (v76 : Vec Ideal S1x1 .f32) (v107 : Vec Ideal S1x128 .f32) :
    k1_pay1 x0 x1 v10 v18 v20 v75 v76 v107 (at1 l)
      = shapeCast S1x128 v107 shapeCasts_S1x128_S1x128 (at1 l)
        + tileSum (weighted x0 x1 v10 v18 v20 v75 v76) * mark l 0#32 := rfl

/-- A single entry of the weights row, loaded as a [1, 1] vector at lane b. -/
theorem ld_lane (x3 : Vec Ideal S1x128 .f32) (b : Nat) (hb : b < 128)
    (inb : ∀ a, (![0, b] : Fin 2 → Nat) a + (![1, 1] : Fin 2 → Nat) a ≤ S1x128.size a) :
    View.ld x3 (Rect.unit ![0, b] ![1, 1] inb) only = x3 (at1 ⟨b, hb⟩) := by
  show x3 _ = x3 _
  refine congrArg x3 (funext fun a => Fin.ext ?_)
  match a with
  | ⟨0, _⟩ => show 0 + 1 * 0 = 0; omega
  | ⟨1, _⟩ => show b + 1 * 0 = b; omega

end Cert.KernelIdeal.Bce

end
-- ==== Proof.BceSum.lean ====
/-
  The loss pass: lane 0 of the final row as a sum over the grid.

  Each point adds its tile's sum of weight times loss to lane 0 of the row, starting from the cleared row; after the
  last point lane 0 holds zero plus the sum over the 400 points of their tiles' sums.
-/
import proofs.«155373_j51591147159894_2_alg».proof.Proof.BceRun
import proofs.«155373_j51591147159894_2_alg».proof.Proof.BceLane

set_option maxRecDepth 16384

noncomputable section

open Idealize.ShloMosaic Idealize.ShloMosaic.TcCoe Idealize.SL.Sem Idealize.ShloMosaic.ValueIdx

namespace Cert.KernelIdeal.Bce

open Cert.KernelIdeal Cert.KernelIdeal.Gen
open Cert.KernelIdeal.Hist (at1 tileSum tileSum_eq mark mark_eq zero_word)

/-- Lane 0. -/
abbrev lane0 : Fin 128 := ⟨0, by decide⟩

/-- The tile's weight-times-loss array, from the three tiles and the weights row. -/
def tileWeighted (x0 x1 x2 : Vec Ideal S5000x16 .f32) (x3 : Vec Ideal S1x128 .f32) : FVec Ideal S5000x16 .f32 :=
  weighted x0 x1 (k1_pay3 x2) (k1_pay4 x0 x1) (k1_pay5 (View.ld x3 (Rect.unit ![0, 10] ![1, 1] inb_S1x128_S1x1_0_10)))
    (k1_pay7 (k1_pay4 x0 x1)
      (k1_pay6 x0 x1 (View.ld x3 (Rect.unit ![0, 0] ![1, 1] inb_S1x128_S1x1_0_0))
        (View.ld x3 (Rect.unit ![0, 1] ![1, 1] inb_S1x128_S1x1_0_1)))
      (View.ld x3 (Rect.unit ![0, 2] ![1, 1] inb_S1x128_S1x1_0_2))
      (View.ld x3 (Rect.unit ![0, 3] ![1, 1] inb_S1x128_S1x1_0_3))
      (View.ld x3 (Rect.unit ![0, 4] ![1, 1] inb_S1x128_S1x1_0_4))
      (View.ld x3 (Rect.unit ![0, 5] ![1, 1] inb_S1x128_S1x1_0_5))
      (View.ld x3 (Rect.unit ![0, 6] ![1, 1] inb_S1x128_S1x1_0_6))
      (View.ld x3 (Rect.unit ![0, 7] ![1, 1] inb_S1x128_S1x1_0_7))
      (View.ld x3 (Rect.unit ![0, 8] ![1, 1] inb_S1x128_S1x1_0_8)))
    (View.ld x3 (Rect.unit ![0, 9] ![1, 1] inb_S1x128_S1x1_0_9))

/-- Lane b of the weights row. -/
abbrev wl (x3 : Vec Ideal S1x128 .f32) (b : Nat) (hb : b < 128) : EReal := x3 (at1 ⟨b, hb⟩)

/-- One entry of that array: where the entry is valid, its bin's weight picked by ten nested selections out of lanes
    0 to 9 of the weights row, zero elsewhere; times lane 10; times the entry's loss. -/
theorem tileWeighted_at (x0 x1 x2 : Vec Ideal S5000x16 .f32) (x3 : Vec Ideal S1x128 .f32) (p : Fin 5000) (q : Fin 16) :
    tileWeighted x0 x1 x2 x3 (ix2 p q)
      = (Scalar.select (k1_pay3 x2 (ix2 p q))
          (Scalar.select (IntOp.cmpi .eq (k1_pay4 x0 x1 (ix2 p q)) 9#32) (wl x3 9 (by decide))
          (Scalar.select (IntOp.cmpi .eq (k1_pay4 x0 x1 (ix2 p q)) 8#32) (wl x3 8 (by decide))
          (Scalar.select (IntOp.cmpi .eq (k1_pay4 x0 x1 (ix2 p q)) 7#32) (wl x3 7 (by decide))
          (Scalar.select (IntOp.cmpi .eq (k1_pay4 x0 x1 (ix2 p q)) 6#32) (wl x3 6 (by decide))
          (Scalar.select (IntOp.cmpi .eq (k1_pay4 x0 x1 (ix2 p q)) 5#32) (wl x3 5 (by decide))
          (Scalar.select (IntOp.cmpi .eq (k1_pay4 x0 x1 (ix2 p q)) 4#32) (wl x3 4 (by decide))
          (Scalar.select (IntOp.cmpi .eq (k1_pay4 x0 x1 (ix2 p q)) 3#32) (wl x3 3 (by decide))
          (Scalar.select (IntOp.cmpi .eq (k1_pay4 x0 x1 (ix2 p q)) 2#32) (wl x3 2 (by decide))
          (Scalar.select (IntOp.cmpi .eq (k1_pay4 x0 x1 (ix2 p q)) 1#32) (wl x3 1 (by decide))
          (Scalar.select (IntOp.cmpi .eq (k1_pay4 x0 x1 (ix2 p q)) 0#32) (wl x3 0 (by decide))
            (Scalar.ofBits .f32 0x00000000#32 : Ideal .f32)))))))))))
          (Scalar.ofBits .f32 0x00000000#32 : Ideal .f32) * wl x3 10 (by decide)) * loss x0 x1 (ix2 p q) := by
  unfold tileWeighted
  rw [weighted_at, pay7_at, pay6_at, pay5_eq, ld_lane x3 10 (by decide), ld_lane x3 9 (by decide),
    ld_lane x3 8 (by decide), ld_lane x3 7 (by decide), ld_lane x3 6 (by decide), ld_lane x3 5 (by decide),
    ld_lane x3 4 (by decide), ld_lane x3 3 (by decide), ld_lane x3 2 (by decide), ld_lane x3 1 (by decide),
    ld_lane x3 0 (by decide)]

/-- THE STEP AT LANE 0: what the lane held, plus the tile's sum of weight times loss. -/
theorem step_at0 (x0 x1 x2 : Vec Ideal S5000x16 .f32) (x3 xo : Vec Ideal S1x128 .f32) :
    step (F := Ideal) x0 x1 x2 x3 xo (at1 lane0) = xo (at1 lane0) + tileSum (tileWeighted x0 x1 x2 x3) := by
  unfold step
  rw [pay1_at, shapeCast_self, mark_eq lane0 0 (by decide), if_pos rfl, mul_one]
  rfl

variable (V : (c : Dev nD) → (b : Ref sig .tc) → Buf (Elt Ideal) ((c : Thread nD τ).loc b))

theorem N400 : cfg1.N = 400 := N_1

/-- Point number t of the grid. -/
abbrev pt (t : ℕ) (ht : t < 400) : Fin cfg1.N := ⟨t, by rw [N400]; exact ht⟩

/-- The four blocks of a point: three tiles and the weights row. -/
def tile0 (c : Dev nD) (t : Fin cfg1.N) : Vec Ideal S5000x16 .f32 := (iblk1 (F := Ideal) V c 0 t : Vec Ideal S5000x16 .f32)
def tile1 (c : Dev nD) (t : Fin cfg1.N) : Vec Ideal S5000x16 .f32 := (iblk1 (F := Ideal) V c 1 t : Vec Ideal S5000x16 .f32)
def tile2 (c : Dev nD) (t : Fin cfg1.N) : Vec Ideal S5000x16 .f32 := (iblk1 (F := Ideal) V c 2 t : Vec Ideal S5000x16 .f32)
def wrow (c : Dev nD) (t : Fin cfg1.N) : Vec Ideal S1x128 .f32 := (iblk1 (F := Ideal) V c 3 t : Vec Ideal S1x128 .f32)

/-- What a point adds to lane 0. -/
def pointGain (c : Dev nD) (t : Fin cfg1.N) : EReal :=
  tileSum (tileWeighted (tile0 V c t) (tile1 V c t) (tile2 V c t) (wrow V c t))

/-- What point t adds to lane 0 (nothing for a number that is not a point). -/
def gainAt (c : Dev nD) (t : ℕ) : EReal :=
  if ht : t < 400 then pointGain V c (pt t ht) else 0

/-- The row after a point is the step of the row before with the point's blocks. -/
theorem rowAfter_zero (c : Dev nD) (h : 0 < cfg1.N) :
    rowAfter V c 0 h = step (F := Ideal) (tile0 V c ⟨0, h⟩) (tile1 V c ⟨0, h⟩) (tile2 V c ⟨0, h⟩) (wrow V c ⟨0, h⟩)
      (cleared (F := Ideal)) := rfl
theorem rowAfter_succ (c : Dev nD) (n : ℕ) (h : n + 1 < cfg1.N) :
    rowAfter V c (n + 1) h = step (F := Ideal) (tile0 V c ⟨n + 1, h⟩) (tile1 V c ⟨n + 1, h⟩) (tile2 V c ⟨n + 1, h⟩)
      (wrow V c ⟨n + 1, h⟩) (rowAfter V c n (Nat.lt_of_succ_lt h)) := rfl

/-- Lane 0 of the row after point n: zero plus the gains of points 0 to n. -/
theorem rowAfter_at0 (c : Dev nD) :
    ∀ (n : ℕ) (h : n < cfg1.N), rowAfter V c n h (at1 lane0) = 0 + ∑ t ∈ Finset.range (n + 1), gainAt V c t
  | 0, h => by
    have hc : (cleared (F := Ideal)) (at1 lane0) = (0 : EReal) := zero_word
    have e : gainAt V c 0 = pointGain V c ⟨0, h⟩ := by unfold gainAt; rw [dif_pos (by decide : 0 < 400)]
    rw [rowAfter_zero, step_at0, Finset.sum_range_one, hc, e]
    rfl
  | n + 1, h => by
    have hn : n + 1 < 400 := by have := h; rw [N400] at this; exact this
    have e : gainAt V c (n + 1) = pointGain V c ⟨n + 1, h⟩ := by unfold gainAt; rw [dif_pos hn]
    rw [rowAfter_succ, step_at0, rowAfter_at0 c n, Finset.sum_range_succ _ (n + 1), add_assoc, e]
    rfl

/-- Lane 0 of the row after the last point: zero plus the sum over all 400 points. -/
theorem finalRow_at0 (c : Dev nD) :
    finalRow V c (at1 lane0) = 0 + ∑ t : Fin 400, pointGain V c (pt t.val t.isLt) := by
  show rowAfter V c 399 _ (at1 lane0) = _
  have e : ∑ t ∈ Finset.range (399 + 1), gainAt V c t = ∑ t : Fin 400, pointGain V c (pt t.val t.isLt) := by
    rw [← Fin.sum_univ_eq_sum_range (gainAt V c) 400]
    refine Finset.sum_congr rfl fun t _ => ?_
    unfold gainAt
    rw [dif_pos t.isLt]
  rw [rowAfter_at0, e]

end Cert.KernelIdeal.Bce

end
-- ==== Proof.RefGather.lean ====
/-
  The reference's gather of the per-bin weights at the bin words, read at an element.
-/
import proofs.«155373_j51591147159894_2_alg».proof.Proof.RefCounts

open scoped BigOperators

noncomputable section

namespace Cert.RefOps

open Cert.ReferenceIdeal Cert.ReferenceIdeal.Gen Cert.ReferenceIdeal.ReadP Idealize.ShloMosaic
  Idealize.ShloMosaic.ValueIdx Cert.Lib

/-- The wrap of a negative index (`w + 10` when `w < 0`, signed) leaves a non-negative word alone. -/
theorem wrap_nonneg (w : BitVec 32) (h : 0 ≤ w.toInt) :
    Scalar.select (IntOp.cmpi .slt w 0#32) (IntOp.addi w 10#32) w = w := by
  have h0 : (0#32 : BitVec 32).toInt = 0 := by decide
  have hc : IntOp.cmpi .slt w 0#32 = 0#1 := by
    unfold IntOp.cmpi BitVec.slt
    rw [h0, decide_eq_false (by omega)]
    rfl
  rw [hc, select_zero]

/-- The start index the gather reads for element `i` is the bin word at `i`. -/
theorem start_word (x0 x1 : (⟨S2000000x16, .f32⟩ : BufTy).Contents (Elt Ideal)) (i : S2000000x16.Idx) :
    val_main_v38 (F := Ideal) x0 x1 (takeIdx i) = val_main_v17 (F := Ideal) x0 x1 i := by
  have hi : idx_main_v38 (takeIdx i) = i := by
    funext a
    match a with
    | ⟨0, _⟩ => rfl
    | ⟨1, _⟩ => rfl
  rw [val_main_v38_apply, hi, val_main_v37_apply, val_main_v34_apply, val_main_v36_apply, val_main_v33_apply,
    val_main_c_11_apply, val_main_v35_apply, val_main_c_12_apply]
  exact wrap_nonneg _ (bin_range x0 x1 i).1

/-- The gather of the program, read at an element, for any operand and start indices: the operand at the start index
    read signed and clamped into [0, 9]. -/
theorem gather_read (x : (⟨S10, .f32⟩ : BufTy).Contents (Elt Ideal))
    (idx : (⟨S2000000x16x1, .i32⟩ : BufTy).Contents (Elt Ideal)) (i : S2000000x16.Idx) :
    Host.gather gather_S10_S2000000x16x1_S2000000x16_n_0_n_n_0_2_1 x idx i =
      x (ix1 ⟨min (idx (takeIdx i)).toInt.toNat (10 - 1), by omega⟩) :=
  gather_take_apply (by decide) Facts₀.gather_S10_S2000000x16x1_S2000000x16_n_0_n_n_0_2_1_wf x idx i

/-- The gathered weight at element `i` is the weight of `i`'s bin. -/
theorem gather_apply (x0 x1 x2 : (⟨S2000000x16, .f32⟩ : BufTy).Contents (Elt Ideal)) (i : S2000000x16.Idx) :
    val_main_v39 (F := Ideal) x0 x1 x2 i =
      val_main_v32 (F := Ideal) x0 x1 x2
        (ix1 ⟨(val_main_v17 (F := Ideal) x0 x1 i).toInt.toNat, by have h := bin_range x0 x1 i; omega⟩) := by
  have hr := bin_range x0 x1 i
  unfold val_main_v39
  refine (gather_read _ _ i).trans ?_
  refine congrArg _ (congrArg ix1 (Fin.ext ?_))
  show min (val_main_v38 (F := Ideal) x0 x1 (takeIdx i)).toInt.toNat (10 - 1) =
    (val_main_v17 (F := Ideal) x0 x1 i).toInt.toNat
  rewrite [start_word]
  omega

end Cert.RefOps

end
-- ==== Proof.RefScalars.lean ====
/-
  The reference's small stages in scalar form: each read at its index down to named stages and scalar operations.
-/
import proofs.«155373_j51591147159894_2_alg».proof.Proof.RefRead
import Idealize.ShloMosaic.Lib.ValueIdx

open scoped BigOperators

noncomputable section

namespace Cert.RefOps

open Cert.ReferenceIdeal Cert.ReferenceIdeal.Gen Cert.ReferenceIdeal.ReadP Idealize.ShloMosaic
  Idealize.ShloMosaic.ValueIdx

/-- The float word of zero, at the ideal values. -/
abbrev zero : Ideal .f32 := FloatOps.ofBits (F := Ideal) .f32 0x00000000#32
/-- The float word of one, at the ideal values. -/
abbrev one : Ideal .f32 := FloatOps.ofBits (F := Ideal) .f32 0x3F800000#32

/-- A rank-1 index set is its coordinate's range … -/
def idxEquiv1 {n : Nat} : (⟨1, ![n]⟩ : Shape).Idx ≃ Fin n where
  toFun i := i 0
  invFun b := ix1 b
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ b : Fin n, f (ix1 b) := by
  rw [← Equiv.sum_comp (idxEquiv1 (n := n)).symm f]
  rfl

section
variable (X0 X1 X2 : (⟨S2000000x16, .f32⟩ : BufTy).Contents (Elt Ideal))

/-- The number of valid elements: the sum of the validity bits as floats. -/
theorem v11_eq : val_main_v11 (F := Ideal) X2 ix0 = zero + ∑ j : S2000000x16.Idx, val_main_v10 (F := Ideal) X2 j := by
  rw [val_main_v11_apply, val_main_cst_2_apply]

/-- The weight of bin `b`: where the bin's count is positive, max(total, 1) / max(count, 1); elsewhere zero. -/
theorem v32_eq (b : Fin 10) :
    val_main_v32 (F := Ideal) X0 X1 X2 (ix1 b) =
      Scalar.select (FloatOps.cmpf (F := Ideal) (φ := .f32) .ogt (val_main_v23 (F := Ideal) X0 X1 X2 (ix1 b)) zero)
        (FloatOps.hostDivf (F := Ideal) (φ := .f32)
          (FloatOps.maximumf (F := Ideal) (φ := .f32) (val_main_v11 (F := Ideal) X2 ix0) one)
          (FloatOps.maximumf (F := Ideal) (φ := .f32) (val_main_v23 (F := Ideal) X0 X1 X2 (ix1 b)) one)) zero := by
  rw [val_main_v32_apply, val_main_v25_apply, val_main_v24_apply, val_main_cst_7_apply, val_main_v31_apply,
    val_main_v30_apply, val_main_v12_apply, val_main_cst_3_apply, val_main_v29_apply, val_main_v28_apply,
    val_main_cst_9_apply, val_main_call1_v1_apply, val_main_call1_v0_apply, val_main_cst_10_apply]

/-- max(number of nonempty bins, 1): the bins whose count is positive, counted, against one. -/
theorem v41_eq :
    val_main_v41 (F := Ideal) X0 X1 X2 ix0 =
      FloatOps.maximumf (F := Ideal) (φ := .f32)
        (zero + ∑ b : Fin 10, FloatOps.uitofp (F := Ideal) (w := 1) .f32
          (FloatOps.cmpf (F := Ideal) (φ := .f32) .ogt (val_main_v23 (F := Ideal) X0 X1 X2 (ix1 b)) zero)) one := by
  rw [val_main_v41_apply, val_main_v27_apply, val_main_cst_8_apply, val_main_cst_14_apply, sum_idx1]
  refine congrArg (fun s => FloatOps.maximumf (F := Ideal) (φ := .f32) (zero + s) one) ?_
  refine Finset.sum_congr rfl fun b _ => ?_
  rw [val_main_v26_apply, val_main_v25_apply, val_main_v24_apply, val_main_cst_7_apply]

/-- The weighted loss's sum over the elements. -/
theorem v54_eq :
    val_main_v54 (F := Ideal) X0 X1 X2 ix0 = zero + ∑ j : S2000000x16.Idx, val_main_v53 (F := Ideal) X0 X1 X2 j := by
  rw [val_main_v54_apply, val_main_cst_16_apply]

/-- The result: the sum over max(total, 1), times the loss weight one. -/
theorem v56_eq :
    val_main_v56 (F := Ideal) X0 X1 X2 ix0 =
      FloatOps.mulf (F := Ideal) (φ := .f32)
        (FloatOps.hostDivf (F := Ideal) (φ := .f32) (val_main_v54 (F := Ideal) X0 X1 X2 ix0)
          (FloatOps.maximumf (F := Ideal) (φ := .f32) (val_main_v11 (F := Ideal) X2 ix0) one)) one := by
  rw [val_main_v56_apply, val_main_v55_apply, val_main_v12_apply, val_main_cst_3_apply, val_main_cst_17_apply]

end

end Cert.RefOps

end
-- ==== Proof.LibRecip.lean ====
/-
  Division by a nonzero real, at the ideal values, is multiplication by the reciprocal; and which extended reals are
  reals: a finite sum of reals, the maximum of two reals, the float words of one and of zero.
-/
import Idealize.ShloMosaic.PureOps.Ideal

open scoped BigOperators

namespace Cert.Lib

open Idealize.ShloMosaic

/-- Multiplying by `1 / r` is dividing by `r`, for a nonzero real `r` and any extended real `a`. -/
theorem mul_div_one (a : EReal) {r : ℝ} (hr : r ≠ 0) :
    a * Ideal.div 1 (r : EReal) = Ideal.div a (r : EReal) := by
  rw [Ideal.div_coe hr, Ideal.div_coe hr, one_mul]

/-- The same for the host's float division at the ideal values. -/
theorem mul_hostDivf_one (a : EReal) {r : ℝ} (hr : r ≠ 0) :
    a * FloatOps.hostDivf (F := Ideal) (φ := .f32) (1 : EReal) (r : EReal) =
      FloatOps.hostDivf (F := Ideal) (φ := .f32) a (r : EReal) := by
  rw [Ideal.hostDivf_def, Ideal.hostDivf_def]
  exact mul_div_one a hr

/-- A finite sum of extended reals each of which is a real is a real. -/
theorem exists_coe_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _
    exact ⟨0, by rw [Finset.sum_empty]; rfl⟩
  · intro a s ha ih h
    obtain ⟨r1, h1⟩ := h a (Finset.mem_insert_self a s)
    obtain ⟨r2, h2⟩ := ih (fun i hi => h i (Finset.mem_insert_of_mem hi))
    exact ⟨r1 + r2, by rw [Finset.sum_insert ha, h1, h2, EReal.coe_add]⟩

/-- The same over a whole finite type. -/
theorem exists_coe_sum_univ {ι : Type*} [Fintype ι] (f : ι → EReal) (h : ∀ i, ∃ r : ℝ, f i = (r : EReal)) :
    ∃ r : ℝ, ∑ i, f i = (r : EReal) :=
  exists_coe_sum Finset.univ f (fun i _ => h i)

/-- The maximum of two reals, taken among the extended reals, is their maximum as reals. -/
theorem max_coe (a b : ℝ) : max (a : EReal) (b : EReal) = ((max a b : ℝ) : EReal) :=
  (Monotone.map_max EReal.coe_strictMono.monotone).symm

/-- The float word 0x3F800000 is the real one. -/
theorem ofBits_one_f32 : Ideal.ofBits .f32 0x3F800000#32 = ((1 : ℝ) : EReal) := by
  simp [Ideal.ofBits, Ideal.ieee, -EReal.coe_mul]
  norm_num

/-- The float word 0x00000000 is the real zero. -/
theorem ofBits_zero_f32 : Ideal.ofBits .f32 0x00000000#32 = ((0 : ℝ) : EReal) := by
  simp [Ideal.ofBits, Ideal.ieee]

end Cert.Lib
-- ==== Proof.RefWeights.lean ====
/-
  The reference's per-element weight: max(number of nonempty bins, 1) is a real at least one, so dividing the selected
  bin weight by it is multiplying by its reciprocal.
-/
import proofs.«155373_j51591147159894_2_alg».proof.Proof.RefScalars
import proofs.«155373_j51591147159894_2_alg».proof.Proof.RefGather
import proofs.«155373_j51591147159894_2_alg».proof.Proof.LibRecip

open scoped BigOperators

noncomputable section

namespace Cert.RefOps

open Cert.ReferenceIdeal Cert.ReferenceIdeal.Gen Cert.ReferenceIdeal.ReadP Idealize.ShloMosaic
  Idealize.ShloMosaic.ValueIdx Cert.Lib

/-- The float word of zero is the extended real zero. -/
theorem zero_eq : zero = (0 : EReal) := Cert.Lib.ofBits_zero_f32.trans EReal.coe_zero

/-- The float word of one is the extended real one. -/
theorem one_eq : one = (1 : EReal) := Cert.Lib.ofBits_one_f32.trans EReal.coe_one

section
variable (X0 X1 X2 : (⟨S2000000x16, .f32⟩ : BufTy).Contents (Elt Ideal))

/-- max(number of nonempty bins, 1) is a real, at least one: the number is a sum of ten values each 0 or 1. -/
theorem n_real : ∃ r : ℝ, 1 ≤ r ∧ val_main_v41 (F := Ideal) X0 X1 X2 ix0 = (r : EReal) := by
  rw [v41_eq]
  obtain ⟨s, hs⟩ := exists_coe_sum_univ
    (fun b : Fin 10 => FloatOps.uitofp (F := Ideal) (w := 1) .f32
      (FloatOps.cmpf (F := Ideal) (φ := .f32) .ogt (val_main_v23 (F := Ideal) X0 X1 X2 (ix1 b)) zero))
    (fun b => ⟨(((FloatOps.cmpf (F := Ideal) (φ := .f32) .ogt
      (val_main_v23 (F := Ideal) X0 X1 X2 (ix1 b)) zero).toNat : ℝ)), rfl⟩)
  refine ⟨max (0 + s) 1, le_max_right _ _, ?_⟩
  show max (zero + ∑ b : Fin 10, FloatOps.uitofp (F := Ideal) (w := 1) .f32
      (FloatOps.cmpf (F := Ideal) (φ := .f32) .ogt (val_main_v23 (F := Ideal) X0 X1 X2 (ix1 b)) zero)) one = _
  have hz : zero = ((0 : ℝ) : EReal) := Cert.Lib.ofBits_zero_f32
  have ho : one = ((1 : ℝ) : EReal) := Cert.Lib.ofBits_one_f32
  rw [hs, hz, ho, ← EReal.coe_add, max_coe]

/-- The weighted loss of element `j`: the weight of `j`'s bin where `j` is valid (zero elsewhere), times the reciprocal
    of max(number of nonempty bins, 1), times the element's loss. -/
theorem v53_eq (j : S2000000x16.Idx) :
    val_main_v53 (F := Ideal) X0 X1 X2 j =
      (Scalar.select (val_main_v9 (F := Ideal) X2 j)
          (val_main_v32 (F := Ideal) X0 X1 X2
            (ix1 ⟨(val_main_v17 (F := Ideal) X0 X1 j).toInt.toNat, by have h := bin_range X0 X1 j; omega⟩)) zero
        * FloatOps.hostDivf (F := Ideal) (φ := .f32) one (val_main_v41 (F := Ideal) X0 X1 X2 ix0))
      * val_main_v52 (F := Ideal) X0 X1 j := by
  obtain ⟨r, hr1, hr⟩ := n_real X0 X1 X2
  have hr0 : r ≠ 0 := by
    intro h
    rw [h] at hr1
    exact absurd hr1 (by norm_num)
  have h42 : val_main_v42 (F := Ideal) X0 X1 X2 j = (r : EReal) := by
    rw [val_main_v42_apply]
    exact hr
  rw [val_main_v53_apply, val_main_v43_apply, h42, val_main_v40_apply, val_main_call2_v1_apply,
    val_main_call2_v0_apply, val_main_cst_13_apply, gather_apply, hr, one_eq, mul_hostDivf_one _ hr0]
  rfl

end

end Cert.RefOps

end
-- ==== Proof.LibPick.lean ====
/-
  A selection on the equality of a 32-bit word with a small constant is an if-then-else on the word's signed
  reading; ten nested such selections on the constants 9, …, 0 pick the entry the word names.
-/
import Idealize.ShloMosaic.PureOps.Ideal

namespace Cert.Lib

open Idealize.ShloMosaic

/-- A number below 2 ^ 31, as a 32-bit word, reads signed as itself. -/
theorem toInt_ofNat_small {n : Nat} (h : n < 2 ^ 31) : (BitVec.ofNat 32 n).toInt = (n : Int) := by
  have h' : n < 2147483648 := h
  rw [BitVec.toInt_eq_toNat_cond, BitVec.toNat_ofNat]
  have hm : n % 2 ^ 32 = n := Nat.mod_eq_of_lt (by omega)
  rw [hm]
  split <;> omega

/-- A word equals the word of a number below 2 ^ 31 exactly when it reads signed as that number. -/
theorem eq_ofNat_iff_toInt {n : Nat} (h : n < 2 ^ 31) (w : BitVec 32) :
    w = BitVec.ofNat 32 n ↔ w.toInt = (n : Int) := by
  constructor
  · intro e; rw [e]; exact toInt_ofNat_small h
  · intro e; exact BitVec.eq_of_toInt_eq (e.trans (toInt_ofNat_small h).symm)

/-- The selection on `w == n`, for `n` below 2 ^ 31, is the if-then-else on `w`'s signed reading being `n`. -/
theorem select_cmpi_eq {α : Type} (w : BitVec 32) {n : Nat} (h : n < 2 ^ 31) (a z : α) :
    Scalar.select (IntOp.cmpi .eq w (BitVec.ofNat 32 n)) a z = if w.toInt = (n : Int) then a else z := by
  show (if BitVec.ofBool (w == BitVec.ofNat 32 n) = 1#1 then a else z) = _
  by_cases hw : w = BitVec.ofNat 32 n
  · rw [if_pos ((eq_ofNat_iff_toInt h w).1 hw)]
    have hb : (w == BitVec.ofNat 32 n) = true := by rw [hw]; exact beq_self_eq_true _
    rw [hb]
    rfl
  · rw [if_neg (fun e => hw ((eq_ofNat_iff_toInt h w).2 e))]
    have hb : (w == BitVec.ofNat 32 n) = false := by
      cases hc : (w == BitVec.ofNat 32 n)
      · rfl
      · exact absurd (eq_of_beq hc) hw
    rw [hb]
    rfl

/-- Ten nested selections on `w == 9`, …, `w == 0` (9 outermost) pick entry `w` of `f`, for a word that reads
    signed in [0, 9]; the innermost alternative `z` is never taken. -/
theorem pick10 {α : Type} (w : BitVec 32) (h0 : 0 ≤ w.toInt) (h9 : w.toInt ≤ 9) (f : Fin 10 → α) (z : α) :
    Scalar.select (IntOp.cmpi .eq w 9#32) (f 9)
      (Scalar.select (IntOp.cmpi .eq w 8#32) (f 8)
      (Scalar.select (IntOp.cmpi .eq w 7#32) (f 7)
      (Scalar.select (IntOp.cmpi .eq w 6#32) (f 6)
      (Scalar.select (IntOp.cmpi .eq w 5#32) (f 5)
      (Scalar.select (IntOp.cmpi .eq w 4#32) (f 4)
      (Scalar.select (IntOp.cmpi .eq w 3#32) (f 3)
      (Scalar.select (IntOp.cmpi .eq w 2#32) (f 2)
      (Scalar.select (IntOp.cmpi .eq w 1#32) (f 1)
      (Scalar.select (IntOp.cmpi .eq w 0#32) (f 0) z))))))))) = f ⟨w.toInt.toNat, by omega⟩ := by
  have key : ∀ (k : Int) (hk0 : 0 ≤ k) (hk9 : k ≤ 9),
      (if k = ((9 : Nat) : Int) then f 9 else if k = ((8 : Nat) : Int) then f 8 else
        if k = ((7 : Nat) : Int) then f 7 else if k = ((6 : Nat) : Int) then f 6 else
        if k = ((5 : Nat) : Int) then f 5 else if k = ((4 : Nat) : Int) then f 4 else
        if k = ((3 : Nat) : Int) then f 3 else if k = ((2 : Nat) : Int) then f 2 else
        if k = ((1 : Nat) : Int) then f 1 else if k = ((0 : Nat) : Int) then f 0 else z) =
        f ⟨k.toNat, by omega⟩ := by
    intro k hk0 hk9
    have hc : k = 0 ∨ k = 1 ∨ k = 2 ∨ k = 3 ∨ k = 4 ∨ k = 5 ∨ k = 6 ∨ k = 7 ∨ k = 8 ∨ k = 9 := by omega
    rcases hc with rfl | rfl | rfl | rfl | rfl | rfl | rfl | rfl | rfl | rfl <;> rfl
  rw [select_cmpi_eq w (n := 9) (by decide), select_cmpi_eq w (n := 8) (by decide),
    select_cmpi_eq w (n := 7) (by decide), select_cmpi_eq w (n := 6) (by decide),
    select_cmpi_eq w (n := 5) (by decide), select_cmpi_eq w (n := 4) (by decide),
    select_cmpi_eq w (n := 3) (by decide), select_cmpi_eq w (n := 2) (by decide),
    select_cmpi_eq w (n := 1) (by decide), select_cmpi_eq w (n := 0) (by decide)]
  exact key w.toInt h0 h9

end Cert.Lib
-- ==== Proof.BridgeBce.lean ====
/-
  The loss pass computes the reference's weighted loss sum.

  The weights row the second pass reads holds, on lane b below 10, the reference's weight of bin b (the same scalar
  operations applied to the same counts) and on lane 10 the reciprocal of max(n, 1), n the number of nonempty bins. At
  a tile entry the ten nested selections on the bin word pick the weight of the entry's bin — what the reference
  gathers —, the product with 1 / max(n, 1) is the reference's quotient by max(n, 1) (a real number at least 1), and
  the loss terms agree. Regrouping the sum over the 400 tiles gives the reference's sum.
-/
import proofs.«155373_j51591147159894_2_alg».proof.Proof.BridgeHist
import proofs.«155373_j51591147159894_2_alg».proof.Proof.BceSum
import proofs.«155373_j51591147159894_2_alg».proof.Proof.RefGather
import proofs.«155373_j51591147159894_2_alg».proof.Proof.RefScalars
import proofs.«155373_j51591147159894_2_alg».proof.Proof.RefWeights
import proofs.«155373_j51591147159894_2_alg».proof.Proof.LibPick

set_option maxRecDepth 16384

noncomputable section

open Idealize.ShloMosaic Idealize.ShloMosaic.TcCoe Idealize.SL.Sem Idealize.ShloMosaic.ValueIdx

namespace Cert.Bridge

open Cert.KernelIdeal Cert.KernelIdeal.Gen
open Cert.ReferenceIdeal.ReadP (val_main_v9 val_main_v10 val_main_v11 val_main_v17 val_main_v23 val_main_v32 val_main_v41
  val_main_v52 val_main_v53 val_main_v54)

/-! ## One entry, over any tiles and weights row -/

section Entry
variable (x0 x1 x2 : Vec Ideal S5000x16 .f32) (x3 : Vec Ideal S1x128 .f32)
variable (X0 X1 X2 : (⟨Cert.ReferenceIdeal.S2000000x16, .f32⟩ : BufTy).Contents (Elt Ideal))

/-- Ten nested selections on the bin word, out of lanes 0 to 9 of a weights row that holds `g`, pick `g` at the
    word. -/
theorem pick_lanes (w : BitVec 32) (h0 : 0 ≤ w.toInt) (h9 : w.toInt ≤ 9) (g : Fin 10 → EReal) (z : EReal)
    (hw : ∀ b : Fin 10, Bce.wl x3 b.val (by have := b.isLt; omega) = g b) :
    Scalar.select (IntOp.cmpi .eq w 9#32) (Bce.wl x3 9 (by decide))
      (Scalar.select (IntOp.cmpi .eq w 8#32) (Bce.wl x3 8 (by decide))
      (Scalar.select (IntOp.cmpi .eq w 7#32) (Bce.wl x3 7 (by decide))
      (Scalar.select (IntOp.cmpi .eq w 6#32) (Bce.wl x3 6 (by decide))
      (Scalar.select (IntOp.cmpi .eq w 5#32) (Bce.wl x3 5 (by decide))
      (Scalar.select (IntOp.cmpi .eq w 4#32) (Bce.wl x3 4 (by decide))
      (Scalar.select (IntOp.cmpi .eq w 3#32) (Bce.wl x3 3 (by decide))
      (Scalar.select (IntOp.cmpi .eq w 2#32) (Bce.wl x3 2 (by decide))
      (Scalar.select (IntOp.cmpi .eq w 1#32) (Bce.wl x3 1 (by decide))
      (Scalar.select (IntOp.cmpi .eq w 0#32) (Bce.wl x3 0 (by decide)) z))))))))) = g ⟨w.toInt.toNat, by omega⟩ := by
  rw [show Bce.wl x3 9 (by decide) = g 9 from hw 9, show Bce.wl x3 8 (by decide) = g 8 from hw 8,
    show Bce.wl x3 7 (by decide) = g 7 from hw 7, show Bce.wl x3 6 (by decide) = g 6 from hw 6,
    show Bce.wl x3 5 (by decide) = g 5 from hw 5, show Bce.wl x3 4 (by decide) = g 4 from hw 4,
    show Bce.wl x3 3 (by decide) = g 3 from hw 3, show Bce.wl x3 2 (by decide) = g 2 from hw 2,
    show Bce.wl x3 1 (by decide) = g 1 from hw 1, show Bce.wl x3 0 (by decide) = g 0 from hw 0]
  exact Cert.Lib.pick10 w h0 h9 g z

/-- A tile entry's weight times loss is the reference's weighted loss of the array entry holding the same inputs,
    when the weights row holds the reference's bin weights and the reciprocal of its clamped count of nonempty bins. -/
theorem entry_eq (p : Fin 5000) (q : Fin 16) (j : Cert.ReferenceIdeal.S2000000x16.Idx)
    (h0 : x0 (ix2 p q) = X0 j) (h1 : x1 (ix2 p q) = X1 j) (h2 : x2 (ix2 p q) = X2 j)
    (hw : ∀ b : Fin 10, Bce.wl x3 b.val (by have := b.isLt; omega) = val_main_v32 (F := Ideal) X0 X1 X2 (ix1 b))
    (hw10 : Bce.wl x3 10 (by decide)
      = FloatOps.hostDivf (F := Ideal) (φ := .f32) Cert.RefOps.one (val_main_v41 (F := Ideal) X0 X1 X2 ix0)) :
    Bce.tileWeighted x0 x1 x2 x3 (ix2 p q) = val_main_v53 (F := Ideal) X0 X1 X2 j := by
  have hr := Cert.RefOps.bin_range X0 X1 j
  rw [Bce.tileWeighted_at, Cert.RefOps.v53_eq, Cert.Tile.valid_bit x2 X2 (ix2 p q) j h2,
    Cert.Tile.bin1 x0 x1 X0 X1 (ix2 p q) j h0 h1,
    pick_lanes x3 _ hr.1 hr.2 (fun b => val_main_v32 (F := Ideal) X0 X1 X2 (ix1 b)) _ hw, hw10]
  show _ * Cert.Tile.lossTile x0 x1 (ix2 p q) = _
  rw [Cert.Tile.loss x0 x1 X0 X1 (ix2 p q) j h0 h1]

end Entry

/-! ## The blocks of the second pass -/

variable (m : (ℓ : Loc nD τ sig) → Buf (Elt Ideal) ℓ) (ρ : Dev nD → PrngReg) (c : Dev nD)

theorem btile0 (t : Fin 400) (p : Fin 5000) (q : Fin 16) :
    Bce.tile0 (V4 m ρ) c (Bce.pt t.val t.isLt) (ix2 p q) = A0 m c (ix2 (rowOf t p) q) := by
  unfold Bce.tile0
  rw [Blocks.iblk1_0_apply, HostSide.V4_main_arg0]
theorem btile1 (t : Fin 400) (p : Fin 5000) (q : Fin 16) :
    Bce.tile1 (V4 m ρ) c (Bce.pt t.val t.isLt) (ix2 p q) = A1 m c (ix2 (rowOf t p) q) := by
  unfold Bce.tile1
  rw [Blocks.iblk1_1_apply, HostSide.V4_main_arg1]
theorem btile2 (t : Fin 400) (p : Fin 5000) (q : Fin 16) :
    Bce.tile2 (V4 m ρ) c (Bce.pt t.val t.isLt) (ix2 p q) = A2 m c (ix2 (rowOf t p) q) := by
  unfold Bce.tile2
  rw [Blocks.iblk1_2_apply, HostSide.V4_main_arg2]

/-- Lane 10 of the histogram row is the reference's number of valid entries. -/
theorem hist_total_ref :
    HostSide.Hst m ρ c (ix2 (0 : Fin 1) (10 : Fin 128)) = val_main_v11 (F := Ideal) (A2 m c) ix0 := by
  rw [hist_total, Cert.RefOps.v11_eq, Cert.RefOps.zero_eq]

/-- Lane b (below 10) of the weights row, as the second pass finds it at any point, is the reference's weight of bin b. -/
theorem weights_lane (t : Fin 400) (b : Fin 10) :
    Bce.wl (Bce.wrow (V4 m ρ) c (Bce.pt t.val t.isLt)) b.val (by have := b.isLt; omega)
      = val_main_v32 (F := Ideal) (A0 m c) (A1 m c) (A2 m c) (ix1 b) := by
  unfold Bce.wrow
  show (iblk1 (V4 m ρ) c 3 (Bce.pt t.val t.isLt) : Vec Ideal S1x128 .f32) (HostSide.lane b) = _
  rw [Blocks.iblk1_3_apply, HostSide.aux_read_lane, hist_lane, hist_total_ref, Cert.RefOps.v32_eq]

/-- Lane 10 of the weights row is one over the reference's max(n, 1). -/
theorem weights_lane10 (t : Fin 400) :
    Bce.wl (Bce.wrow (V4 m ρ) c (Bce.pt t.val t.isLt)) 10 (by decide)
      = FloatOps.hostDivf (F := Ideal) (φ := .f32) Cert.RefOps.one
          (val_main_v41 (F := Ideal) (A0 m c) (A1 m c) (A2 m c) ix0) := by
  unfold Bce.wrow
  show (iblk1 (V4 m ρ) c 3 (Bce.pt t.val t.isLt) : Vec Ideal S1x128 .f32) (ix2 (0 : Fin 1) (10 : Fin 128)) = _
  rw [Blocks.iblk1_3_apply, HostSide.aux_read_lane10_fin, Cert.RefOps.v41_eq]
  simp only [hist_lane]

/-! ## Lane 0 of the second pass's output row -/

/-- Lane 0 of the second pass's output row is the reference's sum of weighted losses. -/
theorem loss_lane0 :
    HostSide.Bce m ρ c (ix2 (0 : Fin 1) (0 : Fin 128)) = val_main_v54 (F := Ideal) (A0 m c) (A1 m c) (A2 m c) ix0 := by
  have hix : (ix2 (0 : Fin 1) (0 : Fin 128) : S1x128.Idx) = Hist.at1 Bce.lane0 := rfl
  rw [hix]
  unfold HostSide.Bce
  rw [Bce.final_eq, Bce.finalRow_at0, Cert.RefOps.v54_eq, Cert.RefOps.zero_eq, Cert.Lib.sum_tiles_2000000x16]
  refine congrArg (fun s : EReal => (0 : EReal) + s) ?_
  refine Finset.sum_congr rfl fun t _ => ?_
  unfold Bce.pointGain
  rw [Hist.tileSum_eq]
  refine Finset.sum_congr rfl fun p _ => Finset.sum_congr rfl fun q _ => ?_
  exact entry_eq _ _ _ _ (A0 m c) (A1 m c) (A2 m c) p q (ix2 (rowOf t p) q) (btile0 m ρ c t p q) (btile1 m ρ c t p q)
    (btile2 m ρ c t p q) (fun b => weights_lane m ρ c t b) (weights_lane10 m ρ c t)

end Cert.Bridge

end
-- ==== Proof.BridgeResult.lean ====
/-
  The program's result is the reference's.

  Both programs end by dividing the sum of weighted losses by the number of valid entries clamped below by one and
  multiplying by the loss weight one; the sum is the second pass's lane 0, the number of valid entries the first
  pass's lane 10.
-/
import proofs.«155373_j51591147159894_2_alg».proof.Proof.BridgeBce

set_option maxRecDepth 16384

noncomputable section

open Idealize.ShloMosaic Idealize.ShloMosaic.TcCoe Idealize.SL.Sem Idealize.ShloMosaic.ValueIdx

namespace Cert.Bridge

open Cert.KernelIdeal Cert.KernelIdeal.Gen
open Cert.ReferenceIdeal.ReadP (val_main_v11 val_main_v54 val_main_v56)

variable (m : (ℓ : Loc nD τ sig) → Buf (Elt Ideal) ℓ) (ρ : Dev nD → PrngReg) (c : Dev nD)

/-- The result buffer ends holding the reference's result. -/
theorem result_eq :
    (W6 m ρ c (Proc.devRef .tc main_v30) : S_.Idx → EReal) = val_main_v56 (F := Ideal) (A0 m c) (A1 m c) (A2 m c) := by
  funext i
  obtain rfl : i = ix0 := eq_ix0 i
  rw [HostSide.result_read, Cert.RefOps.v56_eq, loss_lane0, hist_total_ref]

/-- info: 'Cert.Bridge.result_eq' depends on axioms: [propext, Classical.choice, Quot.sound] -/
#guard_msgs in #print axioms result_eq

end Cert.Bridge

end
-- ==== Proof.lean ====
/-
  The claims of this certificate, assembled.

  The two frames of the kernel program (as printed, and idealized) are the generated frame certificates; the reference
  program's frame is its run with the result dropped. The idealization rewrote nothing. For the value claim both
  programs end holding one extended real: the reference's loss — the weighted binary cross-entropy, the weight of an
  entry being total / count of its gradient-norm bin, over the number of nonempty bins, summed and divided by the
  number of valid entries. The kernel reaches it in two passes over 400 tiles with a ten-number host step between
  them; the reference by one segment sum, one gather and whole-array sums. The agreement is proved in the modules
  imported here: each pass read at a lane as a sum over the tiles, the tiles' entries identified with the arrays',
  and the host steps of both programs compared operation by operation.
-/
import proofs.«155373_j51591147159894_2_alg».proof.Defs
import proofs.«155373_j51591147159894_2_alg».proof.Proof.Gen.Kernel
import proofs.«155373_j51591147159894_2_alg».proof.Proof.Gen.Kernel.Skeleton
import proofs.«155373_j51591147159894_2_alg».proof.Proof.Gen.Kernel.Launch
import proofs.«155373_j51591147159894_2_alg».proof.Proof.Gen.Kernel.Points
import proofs.«155373_j51591147159894_2_alg».proof.Proof.Gen.Kernel.Frame
import proofs.«155373_j51591147159894_2_alg».proof.Proof.Gen.KernelIdeal
import proofs.«155373_j51591147159894_2_alg».proof.Proof.Gen.KernelIdeal.Skeleton
import proofs.«155373_j51591147159894_2_alg».proof.Proof.Gen.KernelIdeal.Launch
import proofs.«155373_j51591147159894_2_alg».proof.Proof.Gen.KernelIdeal.Points
import proofs.«155373_j51591147159894_2_alg».proof.Proof.Gen.KernelIdeal.Frame
import proofs.«155373_j51591147159894_2_alg».proof.Proof.Gen.ReferenceIdeal
import proofs.«155373_j51591147159894_2_alg».proof.Proof.Gen.Pre_finite_inputs
import proofs.«155373_j51591147159894_2_alg».proof.Proof.KernelRun
import proofs.«155373_j51591147159894_2_alg».proof.Proof.BridgeResult
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's loss of arguments that agree. -/
theorem algebraic : Cert.algebraic_KernelIdeal_ReferenceIdeal := by
  intro m ρ m' ρ' _ hagree
  refine ⟨fun c => Cert.KernelIdeal.Gen.W6 m ρ c (Proc.devRef .tc Cert.KernelIdeal.main_v30),
    Cert.KernelIdeal.HostSide.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, (hagree c).1, (hagree c).2.1, (hagree c).2.2]
  exact (Cert.Bridge.result_eq m ρ c).symm

theorem claim : Cert.Claim := ⟨Cert.Kernel.Gen.facts, Cert.KernelIdeal.Gen.facts, Cert.ReferenceIdeal.Gen.facts,
  Cert.Pre_finite_inputs.Gen.facts, frame_p, frame_pi, frame_ri, preserves, algebraic⟩

end Cert.Proof

end
